-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S1024x3072 .f32) (main_arg2 : FVec F S3072 .f32) (main_arg3 : FVec F S1024x1024 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1x3072 : Shape := ⟨2, ![1, 3072]⟩
abbrev S1x1024 : Shape := ⟨2, ![1, 1024]⟩
abbrev S1x512x1024 : Shape := ⟨3, ![1, 512, 1024]⟩
abbrev S512x1024 : Shape := ⟨2, ![512, 1024]⟩
abbrev S512x3072 : Shape := ⟨2, ![512, 3072]⟩
abbrev S512x16x64 : Shape := ⟨3, ![512, 16, 64]⟩
abbrev S512x16x16 : Shape := ⟨3, ![512, 16, 16]⟩
abbrev S512x16 : Shape := ⟨2, ![512, 16]⟩
abbrev S512x16x1 : Shape := ⟨3, ![512, 16, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .bf16⟩
  | .hbm, ⟨6, _⟩ => ⟨S1024x1024, .bf16⟩
  | .hbm, ⟨7, _⟩ => ⟨S1x3072, .f32⟩
  | .hbm, ⟨8, _⟩ => ⟨S1x1024, .f32⟩
  | .hbm, ⟨9, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x3072, .f32⟩
  | .local _ .vmem, ⟨4, _⟩ => ⟨S1024x1024, .bf16⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S3072_S1x3072 : S3072.ShapeCasts S1x3072
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  shapeCasts_S512x1024_S512x16x64 : S512x1024.ShapeCasts S512x16x64
  slices_S512x3072_o0_1024_S512x1024 : S512x3072.Slices ![0, 1024] S512x1024
  slices_S512x3072_o0_2048_S512x1024 : S512x3072.Slices ![0, 2048] S512x1024
  reduces_S512x16x16_S512x16 : S512x16x16.Reduces [2] S512x16
  shapeCasts_S512x16_S512x16x1 : S512x16.ShapeCasts S512x16x1
  broadcasts_S512x16x1_S512x16x16 : S512x16x1.Broadcasts S512x16x16
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x16x64_S512x16x64_S512x16x16_2_2_1_1_0_0_wf : DotDims.WF S512x16x64 S512x16x64 S512x16x16 [2] [2] [1] [1] [0] [0]
  dot_S512x16x16_S512x16x64_S512x16x64_2_1_1_2_0_0_wf : DotDims.WF S512x16x16 S512x16x64 S512x16x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x4096x1024.size a
  hwx0_5 : ∀ i : grid0.Coords, EltTy.bits .f32 = 32 ∨ (Rect.block (s := S4x4096x1024) S1x512x1024.size (cc0_transform_5 i) (hinb0_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf
def dot_S512x16x16_S512x16x64_S512x16x64_2_1_1_2_0_0 : DotDims S512x16x16 S512x16x64 S512x16x64 where
  lhsContracting := [2]
  rhsContracting := [1]
  lhsNonContracting := [1]
  rhsNonContracting := [2]
  lhsBatch := [0]
  rhsBatch := [0]
  wf := dot_S512x16x16_S512x16x64_S512x16x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S4x4096x3072 : Shape := ⟨3, ![4, 4096, 3072]⟩
abbrev S1x1x3072 : Shape := ⟨3, ![1, 1, 3072]⟩
abbrev S4x4096x16x64 : Shape := ⟨4, ![4, 4096, 16, 64]⟩
abbrev S4x4096x16x16 : Shape := ⟨4, ![4, 4096, 16, 16]⟩
abbrev S4x4096x16 : Shape := ⟨3, ![4, 4096, 16]⟩
abbrev S4x4096x16x1 : Shape := ⟨4, ![4, 4096, 16, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x3072, .f32⟩
  | .hbm, ⟨10, _⟩ => ⟨S1x1x3072, .f32⟩
  | .hbm, ⟨11, _⟩ => ⟨S4x4096x3072, .f32⟩
  | .hbm, ⟨12, _⟩ => ⟨S4x4096x3072, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x16x64, .f32⟩
  | .hbm, ⟨17, _⟩ => ⟨S4x4096x16x64, .f32⟩
  | .hbm, ⟨18, _⟩ => ⟨S4x4096x16x64, .f32⟩
  | .hbm, ⟨19, _⟩ => ⟨S4x4096x16x16, .f32⟩
  | .hbm, ⟨20, _⟩ => ⟨S4x4096x16x16, .f32⟩
  | .hbm, ⟨21, _⟩ => ⟨S4x4096x16x16, .f32⟩
  | .hbm, ⟨22, _⟩ => ⟨S_, .f32⟩
  | .hbm, ⟨23, _⟩ => ⟨S4x4096x16, .f32⟩
  | .hbm, ⟨24, _⟩ => ⟨S_, .f32⟩
  | .hbm, ⟨25, _⟩ => ⟨S4x4096x16, .f32⟩
  | .hbm, ⟨26, _⟩ => ⟨S4x4096x16, .f32⟩
  | .hbm, ⟨27, _⟩ => ⟨S4x4096x16x1, .f32⟩
  | .hbm, ⟨28, _⟩ => ⟨S4x4096x16x16, .f32⟩
  | .hbm, ⟨29, _⟩ => ⟨S4x4096x16x16, .f32⟩
  | .hbm, ⟨30, _⟩ => ⟨S4x4096x16x16, .f32⟩
  | .hbm, ⟨31, _⟩ => ⟨S_, .f32⟩
  | .hbm, ⟨32, _⟩ => ⟨S4x4096x16, .f32⟩
  | .hbm, ⟨33, _⟩ => ⟨S4x4096x16x1, .f32⟩
  | .hbm, ⟨34, _⟩ => ⟨S4x4096x16x16, .f32⟩
  | .hbm, ⟨35, _⟩ => ⟨S4x4096x16x16, .f32⟩
  | .hbm, ⟨36, _⟩ => ⟨S4x4096x16x64, .f32⟩
  | .hbm, ⟨37, _⟩ => ⟨S4x4096x1024, .f32⟩
  | .hbm, ⟨38, _⟩ => ⟨S4x4096x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x4096x16x64 : S4x4096x1024.ShapeCasts S4x4096x16x64
  bcast_S_S4x4096x16x16 : S_.BroadcastsInDim S4x4096x16x16 (![] : Fin 0 → Fin S4x4096x16x16.rank)
  reducesTo_S4x4096x16x16_S4x4096x16_d3 : S4x4096x16x16.ReducesTo [3] S4x4096x16
  h_S_ : 0 < S_.numel
  bcast_S_S4x4096x16 : S_.BroadcastsInDim S4x4096x16 (![] : Fin 0 → Fin S4x4096x16.rank)
  bcast_S4x4096x16_S4x4096x16x1_0_1_2 : S4x4096x16.BroadcastsInDim S4x4096x16x1 (![0, 1, 2] : Fin 3 → Fin S4x4096x16x1.rank)
  bcast_S4x4096x16x1_S4x4096x16x16_0_1_2_3 : S4x4096x16x1.BroadcastsInDim S4x4096x16x16 (![0, 1, 2, 3] : Fin 4 → Fin S4x4096x16x16.rank)
  shapeCasts_S4x4096x16x64_S4x4096x1024 : S4x4096x16x64.ShapeCasts S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x3072_S4x4096x3072_2_0_01_1_n_n_wf : DotDims.WF S4x4096x1024 S1024x3072 S4x4096x3072 [2] [0] [0, 1] [1] [] []
  dot_S4x4096x16x64_S4x4096x16x64_S4x4096x16x16_3_3_2_2_01_01_wf : DotDims.WF S4x4096x16x64 S4x4096x16x64 S4x4096x16x16 [3] [3] [2] [2] [0, 1] [0, 1]
  dot_S4x4096x16x16_S4x4096x16x64_S4x4096x16x64_3_2_2_3_01_01_wf : DotDims.WF S4x4096x16x16 S4x4096x16x64 S4x4096x16x64 [3] [2] [2] [3] [0, 1] [0, 1]
  dot_S4x4096x1024_S1024x1024_S4x4096x1024_2_0_01_1_n_n_wf : DotDims.WF S4x4096x1024 S1024x1024 S4x4096x1024 [2] [0] [0, 1] [1] [] []

variable [Facts₀]

def dot_S4x4096x1024_S1024x3072_S4x4096x3072_2_0_01_1_n_n : DotDims S4x4096x1024 S1024x3072 S4x4096x3072 where
  lhsContracting := [2]
  rhsContracting := [0]
  lhsNonContracting := [0, 1]
  rhsNonContracting := [1]
  lhsBatch := []
  rhsBatch := []
  wf := dot_S4x4096x1024_S1024x3072_S4x4096x3072_2_0_01_1_n_n_wf
def dot_S4x4096x16x64_S4x4096x16x64_S4x4096x16x16_3_3_2_2_01_01 : DotDims S4x4096x16x64 S4x4096x16x64 S4x4096x16x16 where
  lhsContracting := [3]
  rhsContracting := [3]
  lhsNonContracting := [2]
  rhsNonContracting := [2]
  lhsBatch := [0, 1]
  rhsBatch := [0, 1]
  wf := dot_S4x4096x16x64_S4x4096x16x64_S4x4096x16x16_3_3_2_2_01_01_wf
def dot_S4x4096x16x16_S4x4096x16x64_S4x4096x16x64_3_2_2_3_01_01 : DotDims S4x4096x16x16 S4x4096x16x64 S4x4096x16x64 where
  lhsContracting := [3]
  rhsContracting := [2]
  lhsNonContracting := [2]
  rhsNonContracting := [3]
  lhsBatch := [0, 1]
  rhsBatch := [0, 1]
  wf := dot_S4x4096x16x16_S4x4096x16x64_S4x4096x16x64_3_2_2_3_01_01_wf
def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf

class Facts : Prop extends Facts₀ where

variable [Facts]
-- ==== Proof.HeadAttention.lean ====
/-
  What both programs compute, written for ONE token (one row of the input).

  A token's row `x` (1024 numbers) is projected to 3072 numbers, `x · W + b`, read as three parts of 16 heads
  of 64 coordinates each: queries, keys and values. The attention is ACROSS THE HEADS of that one token:
  the score of heads `i`, `j` is the inner product of query `i` and key `j` times a scale `c`; each row of
  scores is normalised by a softmax (shift by the row's maximum, exponentiate, divide by the row's sum); head
  `i`'s new value is the weighted sum of the value vectors; and the 16 × 64 new values, flattened back to
  1024 numbers, go through a second projection `· Wo + bo`.

  Everything is over the extended reals, with the operations' exact meanings (`Ideal.exp`, `Ideal.div`), and
  the two literals the programs spell — the scale `c` and the floor `lo` of the maximum (the pattern of −∞) —
  stay parameters, so the same pattern on both sides is never evaluated.
-/
import Idealize.ShloMosaic.PureOps.Ideal
import Idealize.ShloMosaic.Lib.ValueIdx

noncomputable section

namespace Cert.HeadAttention

open Idealize.ShloMosaic

/-- Column of the projected row that holds coordinate `d` of head `h` in part `p`
    (`0` the queries, `1` the keys, `2` the values): the parts are 1024 wide, a head 64. -/
def col (p : Fin 3) (h : Fin 16) (d : Fin 64) : Fin 3072 :=
  ⟨p.val * 1024 + h.val * 64 + d.val, by have := p.isLt; have := h.isLt; have := d.isLt; omega⟩

theorem col_val (p : Fin 3) (h : Fin 16) (d : Fin 64) : (col p h d).val = p.val * 1024 + h.val * 64 + d.val := rfl

/-- The head a flattened position `e = h · 64 + d` belongs to, -/
def headOf (e : Fin 1024) : Fin 16 := ⟨e.val / 64, by have := e.isLt; omega⟩
/-- and its coordinate inside that head. -/
def coordOf (e : Fin 1024) : Fin 64 := ⟨e.val % 64, Nat.mod_lt _ (by decide)⟩

theorem headOf_val (e : Fin 1024) : (headOf e).val = e.val / 64 := rfl
theorem coordOf_val (e : Fin 1024) : (coordOf e).val = e.val % 64 := rfl

/-- The first projection of one token: `(x · W + b) e`. -/
def proj (x : Fin 1024 → EReal) (W : Fin 1024 → Fin 3072 → EReal) (b : Fin 3072 → EReal) (e : Fin 3072) : EReal :=
  (∑ k : Fin 1024, x k * W k e) + b e

/-- The scaled score of query head `i` against key head `j`. -/
def score (c : EReal) (p : Fin 3072 → EReal) (i j : Fin 16) : EReal :=
  (∑ d : Fin 64, p (col 0 i d) * p (col 1 j d)) * c

/-- The maximum of a row of scores, as both programs take it: a fold of `max` from the floor `lo`, and once more
    against `lo`. -/
def rowMax (lo : EReal) (z : Fin 16 → EReal) : EReal :=
  max lo ((Finset.univ : Finset (Fin 16)).fold max lo z)

/-- A score shifted by its row's maximum, exponentiated. -/
def expo (lo : EReal) (z : Fin 16 → EReal) (j : Fin 16) : EReal := Ideal.exp (z j - rowMax lo z)

/-- The softmax weight: the exponential over the row's sum of exponentials. -/
def weight (lo : EReal) (z : Fin 16 → EReal) (j : Fin 16) : EReal :=
  Ideal.div (expo lo z j) (∑ j' : Fin 16, expo lo z j')

/-- Head `i`'s new coordinate `d`: the value vectors mixed by head `i`'s weights. -/
def mixed (c lo : EReal) (p : Fin 3072 → EReal) (i : Fin 16) (d : Fin 64) : EReal :=
  ∑ j : Fin 16, weight lo (score c p i) j * p (col 2 j d)

/-- The second projection without its bias: the flattened new values times `Wo`. -/
def outSum (c lo : EReal) (p : Fin 3072 → EReal) (Wo : Fin 1024 → Fin 1024 → EReal) (n : Fin 1024) : EReal :=
  ∑ e : Fin 1024, mixed c lo p (headOf e) (coordOf e) * Wo e n

/-- The token's output row. -/
def outRow (c lo : EReal) (p : Fin 3072 → EReal) (Wo : Fin 1024 → Fin 1024 → EReal) (bo : Fin 1024 → EReal)
    (n : Fin 1024) : EReal :=
  outSum c lo p Wo n + bo n

/-- The whole result array as ONE function of the five argument arrays: entry `(b, s, n)` is the output row of
    token `(b, s)` at `n`. -/
def whole (c lo : EReal) (x : (⟨3, ![4, 4096, 1024]⟩ : Shape).Idx → EReal) (W : (⟨2, ![1024, 3072]⟩ : Shape).Idx → EReal)
    (b : (⟨1, ![3072]⟩ : Shape).Idx → EReal) (Wo : (⟨2, ![1024, 1024]⟩ : Shape).Idx → EReal)
    (bo : (⟨1, ![1024]⟩ : Shape).Idx → EReal) : (⟨3, ![4, 4096, 1024]⟩ : Shape).Idx → EReal := fun i =>
  outRow c lo
    (proj (fun k => x (ValueIdx.ix3 (i 0) (i 1) k)) (fun k e => W (ValueIdx.ix2 k e)) (fun e => b (ValueIdx.ix1 e)))
    (fun e n => Wo (ValueIdx.ix2 e n)) (fun n => bo (ValueIdx.ix1 n)) (i 2)

end Cert.HeadAttention

end
-- ==== Proof.ScaleConst.lean ====
/-
  The one place where the two programs spell a number differently: the kernel multiplies the scores by the literal
  `0.125`, the reference by `1 / sqrt 64` computed from the head width. Over the reals `sqrt 64 = 8` exactly, so the
  two scales are one number. The three patterns involved are evaluated here, once.
-/
import Idealize.ShloMosaic.PureOps.Ideal

noncomputable section

namespace Cert.ScaleConst

open Idealize.ShloMosaic

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

theorem sqrt_64 : Real.sqrt 64 = 8 := by
  rw [show (64 : ℝ) = 8 ^ 2 by norm_num]
  exact Real.sqrt_sq (by norm_num)

/-- `1 / sqrt 64`, as the reference computes it, is the kernel's literal `0.125`. -/
theorem scale_eq :
    Ideal.div (Ideal.ofBits .f32 0x3F800000#32) (Ideal.sqrt (Ideal.ofBits .f32 0x42800000#32))
      = Ideal.ofBits .f32 0x3E000000#32 := by
  rw [ofBits_one, ofBits_64, ofBits_eighth, Ideal.sqrt_coe, if_neg (by norm_num), sqrt_64,
    Ideal.div_coe (by norm_num : (8 : ℝ) ≠ 0), ← EReal.coe_mul]
  norm_num

end Cert.ScaleConst

end
-- ==== Proof.KernelStages.lean ====
/-
  The kernel body's arithmetic on one block of 512 tokens, cut into the stages the mathematics has: the fused
  projection, the three parts read as 16 heads of 64 coordinates, the scaled scores of head against head, each
  score row's maximum, the shifted exponentials, their normalisation, the mix of the value vectors, and the
  output projection. Each stage is a vector operation on whole blocks; the body's payload is their composition,
  definitionally.
-/
import proofs.«177501_j68771016343750_1_alg».proof.Proof.Gen.KernelIdeal.Skeleton
import Idealize.ShloMosaic.PureOps.Ideal

noncomputable section

namespace Cert.KernelStages

open Cert.KernelIdeal Cert.KernelIdeal.Gen Idealize.ShloMosaic

/-- The fused projection of the block: tokens × weights plus the bias row repeated down the block. -/
def fused (P0 : Vec Ideal S1x512x1024 .f32) (P1 : Vec Ideal S1024x3072 .bf16) (P2 : Vec Ideal S1x3072 .f32) :
    FVec Ideal S512x3072 .f32 :=
  addf
    (matmul (φ₁ := .bf16) (φ₂ := .bf16) dot_S512x1024_S1024x3072_S512x3072_1_0_0_1_n_n none
      (truncf .bf16 (shapeCast S512x1024 P0 shapeCasts_S1x512x1024_S512x1024) bitsLt_bf16_f32)
      (shapeCast S1024x3072 P1 shapeCasts_S1024x3072_S1024x3072) (constant S512x3072 .f32 0x00000000#32))
    (broadcastTo S512x3072 (shapeCast S1x3072 P2 shapeCasts_S1x3072_S1x3072) broadcasts_S1x3072_S512x3072)

/-- The query part of the projected block, as heads × coordinates. -/
def queries (Y : FVec Ideal S512x3072 .f32) : FVec Ideal S512x16x64 .f32 :=
  shapeCast S512x16x64 (extractStridedSlice S512x1024 ![0, 0] Y slices_S512x3072_o0_0_S512x1024) shapeCasts_S512x1024_S512x16x64
/-- The key part. -/
def keys (Y : FVec Ideal S512x3072 .f32) : FVec Ideal S512x16x64 .f32 :=
  shapeCast S512x16x64 (extractStridedSlice S512x1024 ![0, 1024] Y slices_S512x3072_o0_1024_S512x1024) shapeCasts_S512x1024_S512x16x64
/-- The value part. -/
def values (Y : FVec Ideal S512x3072 .f32) : FVec Ideal S512x16x64 .f32 :=
  shapeCast S512x16x64 (extractStridedSlice S512x1024 ![0, 2048] Y slices_S512x3072_o0_2048_S512x1024) shapeCasts_S512x1024_S512x16x64

/-- Per token, every query head against every key head, times the scale the body spells. -/
def scores (Q K : FVec Ideal S512x16x64 .f32) : FVec Ideal S512x16x16 .f32 :=
  mulf (matmul (φ₁ := .f32) (φ₂ := .f32) dot_S512x16x64_S512x16x64_S512x16x16_2_2_1_1_0_0 none Q K (constant S512x16x16 .f32 0x00000000#32))
    (broadcast S512x16x16 (Scalar.ofBits .f32 0x3E000000#32))

/-- Each score row's maximum: the lane reduction from the floor pattern, and once more against that pattern. -/
def rowMaxes (Z : FVec Ideal S512x16x16 .f32) : FVec Ideal S512x16 .f32 :=
  maximumf (broadcast S512x16 (Scalar.ofBits .f32 0xFF800000#32))
    (multiReduction .maximumf [2] S512x16 Z 0xFF800000#32 reduces_S512x16x16_S512x16 (.inl rfl) rfl)

/-- The scores shifted by their row's maximum, exponentiated. -/
def expos (Z : FVec Ideal S512x16x16 .f32) : FVec Ideal S512x16x16 .f32 :=
  exp (subf Z (broadcastTo S512x16x16 (shapeCast S512x16x1 (rowMaxes Z) shapeCasts_S512x16_S512x16x1) broadcasts_S512x16x1_S512x16x16))

/-- The exponentials over their row's sum. -/
def weights (E : FVec Ideal S512x16x16 .f32) : FVec Ideal S512x16x16 .f32 :=
  divf E (broadcastTo S512x16x16
    (shapeCast S512x16x1 (multiReduction .add [2] S512x16 E 0x00000000#32 reduces_S512x16x16_S512x16 (.inl rfl) rfl) shapeCasts_S512x16_S512x16x1)
    broadcasts_S512x16x1_S512x16x16)

/-- Per token, each head's weights applied to the value vectors. -/
def mixes (A : FVec Ideal S512x16x16 .f32) (V : FVec Ideal S512x16x64 .f32) : FVec Ideal S512x16x64 .f32 :=
  matmul (φ₁ := .f32) (φ₂ := .f32) dot_S512x16x16_S512x16x64_S512x16x64_2_1_1_2_0_0 none A V (constant S512x16x64 .f32 0x00000000#32)

/-- The mixed heads flattened back to 1024 numbers per token, times the output weights. -/
def projected (O : FVec Ideal S512x16x64 .f32) (P3 : Vec Ideal S1024x1024 .bf16) : FVec Ideal S512x1024 .f32 :=
  matmul (φ₁ := .bf16) (φ₂ := .bf16) dot_S512x1024_S1024x1024_S512x1024_1_0_0_1_n_n none
    (truncf .bf16 (shapeCast S512x1024 O shapeCasts_S512x16x64_S512x1024) bitsLt_bf16_f32)
    (shapeCast S1024x1024 P3 shapeCasts_S1024x1024_S1024x1024) (constant S512x1024 .f32 0x00000000#32)

/-- The body's payload is the composition of the stages. -/
theorem pay_eq_stages (P0 : Vec Ideal S1x512x1024 .f32) (P1 : Vec Ideal S1024x3072 .bf16) (P2 : Vec Ideal S1x3072 .f32)
    (P3 : Vec Ideal S1024x1024 .bf16) :
    k0_pay2 (F := Ideal) P0 P1 P2 P3
      = projected (mixes (weights (expos (scores (queries (fused P0 P1 P2)) (keys (fused P0 P1 P2)))))
          (values (fused P0 P1 P2))) P3 := rfl

end Cert.KernelStages

end
-- ==== Proof.KernelDots.lean ====
/-
  The body's four matrix products read at an index, over the extended reals: each, accumulated into zero, is the plain
  sum over its one contracted coordinate of the products of the operands' entries. Two are ordinary products
  (tokens × features), two are batched over the tokens of the block (heads × heads, heads × coordinates).
-/
import proofs.«177501_j68771016343750_1_alg».proof.Proof.Gen.KernelIdeal.Skeleton
import Idealize.ShloMosaic.Lib.ValueIdx
import Idealize.ShloMosaic.PureOps.Ideal.Laws

noncomputable section

namespace Cert.KernelDots

open Cert.KernelIdeal Cert.KernelIdeal.Gen Idealize.ShloMosaic Idealize.ShloMosaic.ValueIdx

theorem dotFused_l0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem dotFused_l1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem dotFused_r0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem dotFused_r1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl
/-- The first product at token `r`, column `e`: the token's row against the column, summed over the 1024 input features. -/
theorem dotFused_apply (L : FVec Ideal S512x1024 .bf16) (R : FVec Ideal S1024x3072 .bf16) (r : Fin 512) (e : Fin 3072) :
    matmul (φ₁ := .bf16) (φ₂ := .bf16) dot_S512x1024_S1024x3072_S512x3072_1_0_0_1_n_n none L R (constant S512x3072 .f32 0x00000000#32) (ix2 r e)
      = ∑ k : Fin 1024, L (ix2 r k) * R (ix2 k e) := by
  show FloatOps.matmul (φ₁ := .bf16) (φ₂ := .bf16) dot_S512x1024_S1024x3072_S512x3072_1_0_0_1_n_n none L R (constant S512x3072 .f32 0x00000000#32) (ix2 r e) = _
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r e) ((contrEquiv1 dot_S512x1024_S1024x3072_S512x3072_1_0_0_1_n_n 1024 rfl rfl).symm k) = ix2 r k := funext fun a => Fin.ext (by
    match a with
    | ⟨0, _⟩ => exact dotFused_l0 _ _
    | ⟨1, _⟩ => exact (dotFused_l1 _ _).trans hk)
  have er : dot_S512x1024_S1024x3072_S512x3072_1_0_0_1_n_n.rhsIdx (ix2 r e) ((contrEquiv1 dot_S512x1024_S1024x3072_S512x3072_1_0_0_1_n_n 1024 rfl rfl).symm k) = ix2 k e := funext fun a => Fin.ext (by
    match a with
    | ⟨0, _⟩ => exact (dotFused_r0 _ _).trans hk
    | ⟨1, _⟩ => exact dotFused_r1 _ _)
  rw [el, er]

theorem dotScores_l0 (i : S512x16x16.Idx) (q : dot_S512x16x64_S512x16x64_S512x16x16_2_2_1_1_0_0.contr.Idx) :
    (dot_S512x16x64_S512x16x64_S512x16x16_2_2_1_1_0_0.lhsIdx i q 0).val = (i 0).val := by
  unfold DotDims.lhsIdx
  rw [dif_pos (show (0 : Fin S512x16x64.rank) ∈ dot_S512x16x64_S512x16x64_S512x16x16_2_2_1_1_0_0.lhsBatch by decide)]
  rfl
theorem dotScores_l1 (i : S512x16x16.Idx) (q : dot_S512x16x64_S512x16x64_S512x16x16_2_2_1_1_0_0.contr.Idx) :
    (dot_S512x16x64_S512x16x64_S512x16x16_2_2_1_1_0_0.lhsIdx i q 1).val = (i 1).val := by
  unfold DotDims.lhsIdx
  rw [dif_neg (show ¬(1 : Fin S512x16x64.rank) ∈ dot_S512x16x64_S512x16x64_S512x16x16_2_2_1_1_0_0.lhsBatch by decide), dif_pos (show (1 : Fin S512x16x64.rank) ∈ dot_S512x16x64_S512x16x64_S512x16x16_2_2_1_1_0_0.lhsNonContracting by decide)]
  rfl
theorem dotScores_l2 (i : S512x16x16.Idx) (q : dot_S512x16x64_S512x16x64_S512x16x16_2_2_1_1_0_0.contr.Idx) :
    (dot_S512x16x64_S512x16x64_S512x16x16_2_2_1_1_0_0.lhsIdx i q 2).val = (q ⟨0, by decide⟩).val :=
  dot_S512x16x64_S512x16x64_S512x16x16_2_2_1_1_0_0.lhsIdx_val_of_single rfl i q
theorem dotScores_r0 (i : S512x16x16.Idx) (q : dot_S512x16x64_S512x16x64_S512x16x16_2_2_1_1_0_0.contr.Idx) :
    (dot_S512x16x64_S512x16x64_S512x16x16_2_2_1_1_0_0.rhsIdx i q 0).val = (i 0).val := by
  unfold DotDims.rhsIdx
  rw [dif_pos (show (0 : Fin S512x16x64.rank) ∈ dot_S512x16x64_S512x16x64_S512x16x16_2_2_1_1_0_0.rhsBatch by decide)]
  rfl
theorem dotScores_r1 (i : S512x16x16.Idx) (q : dot_S512x16x64_S512x16x64_S512x16x16_2_2_1_1_0_0.contr.Idx) :
    (dot_S512x16x64_S512x16x64_S512x16x16_2_2_1_1_0_0.rhsIdx i q 1).val = (i 2).val := by
  unfold DotDims.rhsIdx
  rw [dif_neg (show ¬(1 : Fin S512x16x64.rank) ∈ dot_S512x16x64_S512x16x64_S512x16x16_2_2_1_1_0_0.rhsBatch by decide), dif_pos (show (1 : Fin S512x16x64.rank) ∈ dot_S512x16x64_S512x16x64_S512x16x16_2_2_1_1_0_0.rhsNonContracting by decide)]
  rfl
theorem dotScores_r2 (i : S512x16x16.Idx) (q : dot_S512x16x64_S512x16x64_S512x16x16_2_2_1_1_0_0.contr.Idx) :
    (dot_S512x16x64_S512x16x64_S512x16x16_2_2_1_1_0_0.rhsIdx i q 2).val = (q ⟨0, by decide⟩).val :=
  dot_S512x16x64_S512x16x64_S512x16x16_2_2_1_1_0_0.rhsIdx_val_of_single rfl i q
/-- The product batched over tokens: at token `r`, heads `i`, `j`, the inner product of the two heads' 64 coordinates. -/
theorem dotScores_apply (L : FVec Ideal S512x16x64 .f32) (R : FVec Ideal S512x16x64 .f32) (r : Fin 512) (i : Fin 16) (j : Fin 16) :
    matmul (φ₁ := .f32) (φ₂ := .f32) dot_S512x16x64_S512x16x64_S512x16x16_2_2_1_1_0_0 none L R (constant S512x16x16 .f32 0x00000000#32) (ix3 r i j)
      = ∑ k : Fin 64, L (ix3 r i k) * R (ix3 r j k) := by
  show FloatOps.matmul (φ₁ := .f32) (φ₂ := .f32) dot_S512x16x64_S512x16x64_S512x16x16_2_2_1_1_0_0 none L R (constant S512x16x16 .f32 0x00000000#32) (ix3 r i j) = _
  rw [Ideal.matmul_constant_zero_apply, ← Equiv.sum_comp (contrEquiv1 dot_S512x16x64_S512x16x64_S512x16x16_2_2_1_1_0_0 64 rfl rfl).symm]
  refine Finset.sum_congr rfl fun k _ => ?_
  have hk := contrEquiv1_symm_val dot_S512x16x64_S512x16x64_S512x16x16_2_2_1_1_0_0 64 rfl rfl k
  have el : dot_S512x16x64_S512x16x64_S512x16x16_2_2_1_1_0_0.lhsIdx (ix3 r i j) ((contrEquiv1 dot_S512x16x64_S512x16x64_S512x16x16_2_2_1_1_0_0 64 rfl rfl).symm k) = ix3 r i k := funext fun a => Fin.ext (by
    match a with
    | ⟨0, _⟩ => exact dotScores_l0 _ _
    | ⟨1, _⟩ => exact dotScores_l1 _ _
    | ⟨2, _⟩ => exact (dotScores_l2 _ _).trans hk)
  have er : dot_S512x16x64_S512x16x64_S512x16x16_2_2_1_1_0_0.rhsIdx (ix3 r i j) ((contrEquiv1 dot_S512x16x64_S512x16x64_S512x16x16_2_2_1_1_0_0 64 rfl rfl).symm k) = ix3 r j k := funext fun a => Fin.ext (by
    match a with
    | ⟨0, _⟩ => exact dotScores_r0 _ _
    | ⟨1, _⟩ => exact dotScores_r1 _ _
    | ⟨2, _⟩ => exact (dotScores_r2 _ _).trans hk)
  rw [el, er]

theorem dotMix_l0 (i : S512x16x64.Idx) (q : dot_S512x16x16_S512x16x64_S512x16x64_2_1_1_2_0_0.contr.Idx) :
    (dot_S512x16x16_S512x16x64_S512x16x64_2_1_1_2_0_0.lhsIdx i q 0).val = (i 0).val := by
  unfold DotDims.lhsIdx
  rw [dif_pos (show (0 : Fin S512x16x16.rank) ∈ dot_S512x16x16_S512x16x64_S512x16x64_2_1_1_2_0_0.lhsBatch by decide)]
  rfl
theorem dotMix_l1 (i : S512x16x64.Idx) (q : dot_S512x16x16_S512x16x64_S512x16x64_2_1_1_2_0_0.contr.Idx) :
    (dot_S512x16x16_S512x16x64_S512x16x64_2_1_1_2_0_0.lhsIdx i q 1).val = (i 1).val := by
  unfold DotDims.lhsIdx
  rw [dif_neg (show ¬(1 : Fin S512x16x16.rank) ∈ dot_S512x16x16_S512x16x64_S512x16x64_2_1_1_2_0_0.lhsBatch by decide), dif_pos (show (1 : Fin S512x16x16.rank) ∈ dot_S512x16x16_S512x16x64_S512x16x64_2_1_1_2_0_0.lhsNonContracting by decide)]
  rfl
theorem dotMix_l2 (i : S512x16x64.Idx) (q : dot_S512x16x16_S512x16x64_S512x16x64_2_1_1_2_0_0.contr.Idx) :
    (dot_S512x16x16_S512x16x64_S512x16x64_2_1_1_2_0_0.lhsIdx i q 2).val = (q ⟨0, by decide⟩).val :=
  dot_S512x16x16_S512x16x64_S512x16x64_2_1_1_2_0_0.lhsIdx_val_of_single rfl i q
theorem dotMix_r0 (i : S512x16x64.Idx) (q : dot_S512x16x16_S512x16x64_S512x16x64_2_1_1_2_0_0.contr.Idx) :
    (dot_S512x16x16_S512x16x64_S512x16x64_2_1_1_2_0_0.rhsIdx i q 0).val = (i 0).val := by
  unfold DotDims.rhsIdx
  rw [dif_pos (show (0 : Fin S512x16x64.rank) ∈ dot_S512x16x16_S512x16x64_S512x16x64_2_1_1_2_0_0.rhsBatch by decide)]
  rfl
theorem dotMix_r1 (i : S512x16x64.Idx) (q : dot_S512x16x16_S512x16x64_S512x16x64_2_1_1_2_0_0.contr.Idx) :
    (dot_S512x16x16_S512x16x64_S512x16x64_2_1_1_2_0_0.rhsIdx i q 1).val = (q ⟨0, by decide⟩).val :=
  dot_S512x16x16_S512x16x64_S512x16x64_2_1_1_2_0_0.rhsIdx_val_of_single rfl i q
theorem dotMix_r2 (i : S512x16x64.Idx) (q : dot_S512x16x16_S512x16x64_S512x16x64_2_1_1_2_0_0.contr.Idx) :
    (dot_S512x16x16_S512x16x64_S512x16x64_2_1_1_2_0_0.rhsIdx i q 2).val = (i 2).val := by
  unfold DotDims.rhsIdx
  rw [dif_neg (show ¬(2 : Fin S512x16x64.rank) ∈ dot_S512x16x16_S512x16x64_S512x16x64_2_1_1_2_0_0.rhsBatch by decide), dif_pos (show (2 : Fin S512x16x64.rank) ∈ dot_S512x16x16_S512x16x64_S512x16x64_2_1_1_2_0_0.rhsNonContracting by decide)]
  rfl
/-- The second batched product: at token `r`, head `i`, coordinate `d`, the sum over the 16 heads `k` of weight times value. -/
theorem dotMix_apply (L : FVec Ideal S512x16x16 .f32) (R : FVec Ideal S512x16x64 .f32) (r : Fin 512) (i : Fin 16) (d : Fin 64) :
    matmul (φ₁ := .f32) (φ₂ := .f32) dot_S512x16x16_S512x16x64_S512x16x64_2_1_1_2_0_0 none L R (constant S512x16x64 .f32 0x00000000#32) (ix3 r i d)
      = ∑ k : Fin 16, L (ix3 r i k) * R (ix3 r k d) := by
  show FloatOps.matmul (φ₁ := .f32) (φ₂ := .f32) dot_S512x16x16_S512x16x64_S512x16x64_2_1_1_2_0_0 none L R (constant S512x16x64 .f32 0x00000000#32) (ix3 r i d) = _
  rw [Ideal.matmul_constant_zero_apply, ← Equiv.sum_comp (contrEquiv1 dot_S512x16x16_S512x16x64_S512x16x64_2_1_1_2_0_0 16 rfl rfl).symm]
  refine Finset.sum_congr rfl fun k _ => ?_
  have hk := contrEquiv1_symm_val dot_S512x16x16_S512x16x64_S512x16x64_2_1_1_2_0_0 16 rfl rfl k
  have el : dot_S512x16x16_S512x16x64_S512x16x64_2_1_1_2_0_0.lhsIdx (ix3 r i d) ((contrEquiv1 dot_S512x16x16_S512x16x64_S512x16x64_2_1_1_2_0_0 16 rfl rfl).symm k) = ix3 r i k := funext fun a => Fin.ext (by
    match a with
    | ⟨0, _⟩ => exact dotMix_l0 _ _
    | ⟨1, _⟩ => exact dotMix_l1 _ _
    | ⟨2, _⟩ => exact (dotMix_l2 _ _).trans hk)
  have er : dot_S512x16x16_S512x16x64_S512x16x64_2_1_1_2_0_0.rhsIdx (ix3 r i d) ((contrEquiv1 dot_S512x16x16_S512x16x64_S512x16x64_2_1_1_2_0_0 16 rfl rfl).symm k) = ix3 r k d := funext fun a => Fin.ext (by
    match a with
    | ⟨0, _⟩ => exact dotMix_r0 _ _
    | ⟨1, _⟩ => exact (dotMix_r1 _ _).trans hk
    | ⟨2, _⟩ => exact dotMix_r2 _ _)
  rw [el, er]

theorem dotOut_l0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotOut_l1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem dotOut_r0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem dotOut_r1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The last product at token `r`, output feature `n`: summed over the 1024 flattened head coordinates. -/
theorem dotOut_apply (L : FVec Ideal S512x1024 .bf16) (R : FVec Ideal S1024x1024 .bf16) (r : Fin 512) (n : Fin 1024) :
    matmul (φ₁ := .bf16) (φ₂ := .bf16) dot_S512x1024_S1024x1024_S512x1024_1_0_0_1_n_n none L R (constant S512x1024 .f32 0x00000000#32) (ix2 r n)
      = ∑ k : Fin 1024, L (ix2 r k) * R (ix2 k n) := by
  show FloatOps.matmul (φ₁ := .bf16) (φ₂ := .bf16) dot_S512x1024_S1024x1024_S512x1024_1_0_0_1_n_n none L R (constant S512x1024 .f32 0x00000000#32) (ix2 r n) = _
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r n) ((contrEquiv1 dot_S512x1024_S1024x1024_S512x1024_1_0_0_1_n_n 1024 rfl rfl).symm k) = ix2 r k := funext fun a => Fin.ext (by
    match a with
    | ⟨0, _⟩ => exact dotOut_l0 _ _
    | ⟨1, _⟩ => exact (dotOut_l1 _ _).trans hk)
  have er : dot_S512x1024_S1024x1024_S512x1024_1_0_0_1_n_n.rhsIdx (ix2 r n) ((contrEquiv1 dot_S512x1024_S1024x1024_S512x1024_1_0_0_1_n_n 1024 rfl rfl).symm k) = ix2 k n := funext fun a => Fin.ext (by
    match a with
    | ⟨0, _⟩ => exact (dotOut_r0 _ _).trans hk
    | ⟨1, _⟩ => exact dotOut_r1 _ _)
  rw [el, er]

end Cert.KernelDots

end
-- ==== Proof.KernelRows.lean ====
/-
  The stages of the body read at an index. A block holds 512 tokens; at token `r` every stage depends only on that
  token's row, and is the corresponding piece of the one-token function: the fused projection is `proj` of the row,
  the three parts are its columns `col 0 / 1 / 2`, and so on down to the output projection.
-/
import proofs.«177501_j68771016343750_1_alg».proof.Proof.KernelStages
import proofs.«177501_j68771016343750_1_alg».proof.Proof.KernelDots
import proofs.«177501_j68771016343750_1_alg».proof.Proof.HeadAttention
import Idealize.ShloMosaic.Lib.Pipeline.Value
import Idealize.ShloMosaic.Lib.ValueLayout

noncomputable section

namespace Cert.KernelRows

open Cert.KernelIdeal Cert.KernelIdeal.Gen Idealize.ShloMosaic Idealize.ShloMosaic.ValueIdx
open Cert.KernelStages Cert.KernelDots Cert.HeadAttention

/-- Position `h · 64 + d` of a 1024-wide part. -/
def flat (h : Fin 16) (d : Fin 64) : Fin 1024 := ⟨h.val * 64 + d.val, by have := h.isLt; have := d.isLt; omega⟩

/-- The fused projection at token `r`, column `e`, is `proj` of the token's row: the rounding to the narrow format is
    the identity on extended reals, the block's leading unit axis and the bias's are dropped. -/
theorem fused_apply (P0 : Vec Ideal S1x512x1024 .f32) (P1 : Vec Ideal S1024x3072 .bf16) (P2 : Vec Ideal S1x3072 .f32)
    (r : Fin 512) (e : Fin 3072) :
    fused P0 P1 P2 (ix2 r e)
      = proj (fun k => P0 (ix3 (0 : Fin 1) r k)) (fun k e' => P1 (ix2 k e')) (fun e' => P2 (ix2 (0 : Fin 1) e')) e := by
  unfold fused proj
  rw [addf_apply]
  refine congrArg₂ (· + ·) ((dotFused_apply _ _ r e).trans (Finset.sum_congr rfl fun k _ => ?_)) ?_
  · rw [truncf_apply, shapeCast_1ab_ab_apply, shapeCast_self]
  · rw [broadcastTo_1b_ab_apply, shapeCast_self]

/-- A part of the projected block (offset `p · 1024`) read as heads × coordinates: head `h`, coordinate `d` of token `r` is
    column `col p h d` of the token's projected row. -/
theorem queries_apply (Y : FVec Ideal S512x3072 .f32) (r : Fin 512) (h : Fin 16) (d : Fin 64) :
    queries Y (ix3 r h d) = Y (ix2 r (col 0 h d)) := by
  unfold queries
  refine (shapeCast_apply _ _ (ix3 r h d) (ix2 r (flat h d)) ?_).trans ?_
  · rw [Shape.rowMajor_val_two, Shape.rowMajor_val_three]
    show r.val * 1024 + (h.val * 64 + d.val) = (r.val * 16 + h.val) * 64 + d.val
    omega
  · refine extractStridedSlice_apply _ _ _ (ix2 r (flat h d)) (ix2 r (col 0 h d)) fun a => ?_
    match a with
    | ⟨0, _⟩ => show r.val = 0 + r.val; omega
    | ⟨1, _⟩ => show (0 : Fin 3).val * 1024 + h.val * 64 + d.val = 0 + (h.val * 64 + d.val); simp

theorem keys_apply (Y : FVec Ideal S512x3072 .f32) (r : Fin 512) (h : Fin 16) (d : Fin 64) :
    keys Y (ix3 r h d) = Y (ix2 r (col 1 h d)) := by
  unfold keys
  refine (shapeCast_apply _ _ (ix3 r h d) (ix2 r (flat h d)) ?_).trans ?_
  · rw [Shape.rowMajor_val_two, Shape.rowMajor_val_three]
    show r.val * 1024 + (h.val * 64 + d.val) = (r.val * 16 + h.val) * 64 + d.val
    omega
  · refine extractStridedSlice_apply _ _ _ (ix2 r (flat h d)) (ix2 r (col 1 h d)) fun a => ?_
    match a with
    | ⟨0, _⟩ => show r.val = 0 + r.val; omega
    | ⟨1, _⟩ => show (1 : Fin 3).val * 1024 + h.val * 64 + d.val = 1024 + (h.val * 64 + d.val); simp; omega

theorem values_apply (Y : FVec Ideal S512x3072 .f32) (r : Fin 512) (h : Fin 16) (d : Fin 64) :
    values Y (ix3 r h d) = Y (ix2 r (col 2 h d)) := by
  unfold values
  refine (shapeCast_apply _ _ (ix3 r h d) (ix2 r (flat h d)) ?_).trans ?_
  · rw [Shape.rowMajor_val_two, Shape.rowMajor_val_three]
    show r.val * 1024 + (h.val * 64 + d.val) = (r.val * 16 + h.val) * 64 + d.val
    omega
  · refine extractStridedSlice_apply _ _ _ (ix2 r (flat h d)) (ix2 r (col 2 h d)) fun a => ?_
    match a with
    | ⟨0, _⟩ => show r.val = 0 + r.val; omega
    | ⟨1, _⟩ => show (2 : Fin 3).val * 1024 + h.val * 64 + d.val = 2048 + (h.val * 64 + d.val); simp; omega

/-- The scaled scores at token `r`, heads `i`, `j`. -/
theorem scores_apply (Q K : FVec Ideal S512x16x64 .f32) (r : Fin 512) (i j : Fin 16) :
    scores Q K (ix3 r i j) = (∑ d : Fin 64, Q (ix3 r i d) * K (ix3 r j d)) * Ideal.ofBits .f32 0x3E000000#32 := by
  unfold scores
  rw [mulf_apply]
  exact congrArg₂ (· * ·) (dotScores_apply Q K r i j) rfl

/-- A per-(token, head) quantity given a trailing unit axis and repeated along it reads, at `(r, i, j)`, the quantity at
    `(r, i)`. -/
theorem keepdims_apply (M : FVec Ideal S512x16 .f32) (r : Fin 512) (i j : Fin 16) :
    broadcastTo S512x16x16 (shapeCast S512x16x1 M shapeCasts_S512x16_S512x16x1) broadcasts_S512x16x1_S512x16x16 (ix3 r i j)
      = M (ix2 r i) := by
  refine (broadcastTo_apply _ _ (ix3 r i j) (ix3 r i (0 : Fin 1)) fun a => ?_).trans ?_
  · match a with
    | ⟨0, _⟩ => show r.val = if (512 : Nat) = 1 then 0 else r.val; rw [if_neg (by decide)]
    | ⟨1, _⟩ => show i.val = if (16 : Nat) = 1 then 0 else i.val; rw [if_neg (by decide)]
    | ⟨2, _⟩ => show 0 = if (1 : Nat) = 1 then 0 else j.val; rw [if_pos rfl]
  · refine shapeCast_apply _ _ (ix3 r i (0 : Fin 1)) (ix2 r i) ?_
    rw [Shape.rowMajor_val_two, Shape.rowMajor_val_three]
    show r.val * 16 + i.val = (r.val * 16 + i.val) * 1 + 0
    omega

/-- The row maximum at token `r`, head `i`: the fold of `max` over the 16 scores of that row, from the floor. -/
theorem rowMaxes_apply (Z : FVec Ideal S512x16x16 .f32) (r : Fin 512) (i : Fin 16) :
    rowMaxes Z (ix2 r i) = rowMax (Ideal.ofBits .f32 0xFF800000#32) (fun j => Z (ix3 r i j)) := by
  unfold rowMaxes rowMax
  rw [maximumf_apply]
  refine congrArg₂ max rfl ?_
  refine (Ideal.multiReduction_maximumf_single Z 0xFF800000#32 reduces_S512x16x16_S512x16 (.inl rfl) rfl (ix2 r i)).trans ?_
  refine congrArg (fun f => (Finset.univ : Finset (Fin 16)).fold max (Ideal.ofBits .f32 0xFF800000#32) f) ?_
  funext j
  exact congrArg Z (funext fun a => Fin.ext (by
    match a with
    | ⟨0, _⟩ => rfl
    | ⟨1, _⟩ => rfl
    | ⟨2, _⟩ => rfl))

/-- The shifted exponential. -/
theorem expos_apply (Z : FVec Ideal S512x16x16 .f32) (r : Fin 512) (i j : Fin 16) :
    expos Z (ix3 r i j) = Ideal.exp (Z (ix3 r i j) - rowMaxes Z (ix2 r i)) := by
  unfold expos
  show Ideal.exp (subf Z _ (ix3 r i j)) = _
  rw [subf_apply, keepdims_apply]

/-- The normalisation: an exponential over the sum of its row's 16 exponentials. -/
theorem weights_apply (E : FVec Ideal S512x16x16 .f32) (r : Fin 512) (i j : Fin 16) :
    weights E (ix3 r i j) = Ideal.div (E (ix3 r i j)) (∑ j' : Fin 16, E (ix3 r i j')) := by
  unfold weights
  rw [divf_apply, keepdims_apply]
  refine congrArg (Ideal.div _) ?_
  refine (Ideal.multiReduction_add_single E 0x00000000#32 reduces_S512x16x16_S512x16 (.inl rfl) rfl (ix2 r i)).trans ?_
  exact Finset.sum_congr rfl fun k _ => congrArg E (funext fun a => Fin.ext (by
    match a with
    | ⟨0, _⟩ => rfl
    | ⟨1, _⟩ => rfl
    | ⟨2, _⟩ => rfl))

/-- The output projection at token `r`, feature `n`: flattened position `e` of the mixed heads is head `e / 64`,
    coordinate `e % 64`. -/
theorem projected_apply (O : FVec Ideal S512x16x64 .f32) (P3 : Vec Ideal S1024x1024 .bf16) (r : Fin 512) (n : Fin 1024) :
    projected O P3 (ix2 r n) = ∑ e : Fin 1024, O (ix3 r (headOf e) (coordOf e)) * P3 (ix2 e n) := by
  unfold projected
  refine (dotOut_apply _ _ r n).trans (Finset.sum_congr rfl fun e _ => ?_)
  rw [truncf_apply, shapeCast_self]
  refine congrArg (· * _) (shapeCast_apply _ _ (ix2 r e) (ix3 r (headOf e) (coordOf e)) ?_)
  rw [Shape.rowMajor_val_two, Shape.rowMajor_val_three]
  show (r.val * 16 + e.val / 64) * 64 + e.val % 64 = r.val * 1024 + e.val
  omega

/-! ## The stages of the actual payload are the one-token function of the token's row -/

section
variable (P0 : Vec Ideal S1x512x1024 .f32) (P1 : Vec Ideal S1024x3072 .bf16) (P2 : Vec Ideal S1x3072 .f32) (r : Fin 512)

/-- Token `r`'s projected row. -/
abbrev rowp : Fin 3072 → EReal :=
  proj (fun k => P0 (ix3 (0 : Fin 1) r k)) (fun k e' => P1 (ix2 k e')) (fun e' => P2 (ix2 (0 : Fin 1) e'))

theorem scores_at (i j : Fin 16) :
    scores (queries (fused P0 P1 P2)) (keys (fused P0 P1 P2)) (ix3 r i j)
      = score (Ideal.ofBits .f32 0x3E000000#32) (rowp P0 P1 P2 r) i j := by
  rw [scores_apply]
  unfold score
  refine congrArg (· * _) (Finset.sum_congr rfl fun d _ => ?_)
  rw [queries_apply, keys_apply, fused_apply, fused_apply]

theorem rowMaxes_at (i : Fin 16) :
    rowMaxes (scores (queries (fused P0 P1 P2)) (keys (fused P0 P1 P2))) (ix2 r i)
      = rowMax (Ideal.ofBits .f32 0xFF800000#32) (score (Ideal.ofBits .f32 0x3E000000#32) (rowp P0 P1 P2 r) i) := by
  rw [rowMaxes_apply]
  exact congrArg (rowMax _) (funext fun j => scores_at P0 P1 P2 r i j)

theorem expos_at (i j : Fin 16) :
    expos (scores (queries (fused P0 P1 P2)) (keys (fused P0 P1 P2))) (ix3 r i j)
      = expo (Ideal.ofBits .f32 0xFF800000#32) (score (Ideal.ofBits .f32 0x3E000000#32) (rowp P0 P1 P2 r) i) j := by
  rw [expos_apply, scores_at, rowMaxes_at]
  rfl

theorem weights_at (i j : Fin 16) :
    weights (expos (scores (queries (fused P0 P1 P2)) (keys (fused P0 P1 P2)))) (ix3 r i j)
      = weight (Ideal.ofBits .f32 0xFF800000#32) (score (Ideal.ofBits .f32 0x3E000000#32) (rowp P0 P1 P2 r) i) j := by
  rw [weights_apply, expos_at]
  unfold weight
  exact congrArg (Ideal.div _) (Finset.sum_congr rfl fun j' _ => expos_at P0 P1 P2 r i j')

theorem mixes_at (i : Fin 16) (d : Fin 64) :
    mixes (weights (expos (scores (queries (fused P0 P1 P2)) (keys (fused P0 P1 P2))))) (values (fused P0 P1 P2)) (ix3 r i d)
      = mixed (Ideal.ofBits .f32 0x3E000000#32) (Ideal.ofBits .f32 0xFF800000#32) (rowp P0 P1 P2 r) i d := by
  unfold mixes mixed
  refine (dotMix_apply _ _ r i d).trans (Finset.sum_congr rfl fun j _ => ?_)
  rw [weights_at, values_apply, fused_apply]

end

/-- THE PAYLOAD AT AN INDEX: at token `r` of the block and output feature `n`, the body's chain of products is the
    one-token function (without the output bias) of that token's row, the weight arrays and the first bias. -/
theorem pay_at (P0 : Vec Ideal S1x512x1024 .f32) (P1 : Vec Ideal S1024x3072 .bf16) (P2 : Vec Ideal S1x3072 .f32)
    (P3 : Vec Ideal S1024x1024 .bf16) (r : Fin 512) (n : Fin 1024) :
    k0_pay2 (F := Ideal) P0 P1 P2 P3 (ix2 r n)
      = outSum (Ideal.ofBits .f32 0x3E000000#32) (Ideal.ofBits .f32 0xFF800000#32)
          (proj (fun k => P0 (ix3 (0 : Fin 1) r k)) (fun k e => P1 (ix2 k e)) (fun e => P2 (ix2 (0 : Fin 1) e)))
          (fun e n' => P3 (ix2 e n')) n := by
  rw [pay_eq_stages, projected_apply]
  unfold outSum
  exact Finset.sum_congr rfl fun e _ => congrArg (· * _) (mixes_at P0 P1 P2 r (headOf e) (coordOf e))

end Cert.KernelRows

end
-- ==== Proof.BlocksToArray.lean ====
/-
  From the blocks to the array.

  The grid has 4 × 8 points; point `(b, s)` loads rows `512·s … 512·s + 511` of batch `b` of the input, and the
  two weight matrices and the two biases whole, and writes back the same rows of batch `b` of the result. Given
  what the body's chain of products is at one entry of its block (`PayAt`: the second projection, without its
  bias, of the token in that row), every point writes back its block of ONE function of the five argument arrays —
  the whole-array specification — and the 32 blocks tile the result, so after the run the result array is that
  function. The two weight matrices reach the body through a change of number format, which over the extended
  reals is the identity, and the two biases through a re-layout of a vector as a one-row matrix.
-/
import proofs.«177501_j68771016343750_1_alg».proof.Proof.Gen.KernelIdeal.Value
import proofs.«177501_j68771016343750_1_alg».proof.Proof.HeadAttention
import Idealize.ShloMosaic.Lib.Pipeline.Value
import Idealize.ShloMosaic.Lib.ValueLayout
import Idealize.ShloMosaic.Lib.ValueIdx
import Idealize.ShloMosaic.Lib.Tactic

noncomputable section

namespace Cert.BlocksToArray

open Cert.KernelIdeal Cert.KernelIdeal.Gen Idealize.ShloMosaic Idealize.ShloMosaic.TcCoe Idealize.SL.Sem
open Idealize.ShloMosaic.Pipeline (Dat)
open Idealize.ShloMosaic.ValueIdx

variable (c lo : EReal)
variable (m : (ℓ : Loc nD τ sig) → Buf (Elt Ideal) ℓ) (ρ : Dev nD → PrngReg)

/-- What the body's chain of products is, at one entry of its block: the second projection, without its bias, of
    the token whose row the first loaded block holds at `r`. Supplied by the module that reads the body. -/
def PayAt (c lo : EReal) : Prop :=
  ∀ (P0 : Vec Ideal S1x512x1024 .f32) (P1 : Vec Ideal S1024x3072 .bf16) (P2 : Vec Ideal S1x3072 .f32)
    (P3 : Vec Ideal S1024x1024 .bf16) (r : Fin 512) (n : Fin 1024),
    Cert.KernelIdeal.Gen.k0_pay2 (F := Ideal) P0 P1 P2 P3 (ix2 r n)
      = Cert.HeadAttention.outSum c lo
          (Cert.HeadAttention.proj (fun k => P0 (ix3 (0 : Fin 1) r k)) (fun k e => P1 (ix2 k e)) (fun e => P2 (ix2 (0 : Fin 1) e)))
          (fun e n' => P3 (ix2 e n')) n

/-! ## The block index maps, decided once over the 32 grid points -/

/-- At every grid point the token block read (window 0) sits where the block written (window 5) sits, at block
    index `(b, s, 0)`; the four parameter windows stay at block `(0, 0)`; and `b ≤ 3`, `s ≤ 7`. -/
theorem idx_facts : ∀ t : Fin cfg0.N,
    win0_0.index t (0 : Fin 3) = win0_5.index t (0 : Fin 3)
    ∧ win0_0.index t (1 : Fin 3) = win0_5.index t (1 : Fin 3)
    ∧ win0_0.index t (2 : Fin 3) = 0
    ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 3 ∧ win0_5.index t (1 : Fin 3) ≤ 7 :=
  (by decide +kernel : ∀ t : Fin grid0.N, _)

/-- Every block `(b, s, 0)` of the result, `b < 4`, `s < 8`, is written by some grid point. -/
theorem idx_onto : ∀ (q0 : Fin 4) (q1 : Fin 8), ∃ t : Fin cfg0.N, win0_5.index t = ![q0.val, q1.val, 0] :=
  (by decide +kernel : ∀ (q0 : Fin 4) (q1 : Fin 8), ∃ t : Fin grid0.N, win0_5.index t = ![q0.val, q1.val, 0])

/-! ## The four parameter arrays the region finds: each a relabelling of an argument -/

/-- The first weight matrix as the region finds it: the argument with its entries' format changed, which over the
    extended reals changes nothing. -/
theorem V_v0 (cdev : Dev nD) : @Eq (FVec Ideal S1024x3072 .bf16) (V m cdev main_v0)
    (truncf .bf16 (m ((cdev : Thread nD τ).loc main_arg1) : FVec Ideal S1024x3072 .f32) bitsLt_bf16_f32) := by
  dsimp only [Gen.V, Gen.hostOps0]; after_results

/-- The second weight matrix, likewise. -/
theorem V_v1 (cdev : Dev nD) : @Eq (FVec Ideal S1024x1024 .bf16) (V m cdev main_v1)
    (truncf .bf16 (m ((cdev : Thread nD τ).loc main_arg3) : FVec Ideal S1024x1024 .f32) bitsLt_bf16_f32) := by
  dsimp only [Gen.V, Gen.hostOps0]; after_results

/-- The first bias as the region finds it: the argument vector laid out as one row. -/
theorem V_v2 (cdev : Dev nD) :
    (V m cdev main_v2 : S1x3072.Idx → EReal)
      = shapeCast S1x3072 (m ((cdev : Thread nD τ).loc main_arg2) : S3072.Idx → EReal) shapeCasts_S3072_S1x3072 := by
  dsimp only [Gen.V, Gen.hostOps0]; after_results; rfl

/-- The second bias, likewise. -/
theorem V_v3 (cdev : Dev nD) :
    (V m cdev main_v3 : S1x1024.Idx → EReal)
      = shapeCast S1x1024 (m ((cdev : Thread nD τ).loc main_arg4) : S1024.Idx → EReal) shapeCasts_S1024_S1x1024 := by
  dsimp only [Gen.V, Gen.hostOps0]; after_results; rfl

/-- Entry `(k, e)` of the first weight matrix the region finds is the argument's. -/
theorem V_v0_at (cdev : Dev nD) (k : Fin 1024) (e : Fin 3072) :
    (V m cdev main_v0 : S1024x3072.Idx → EReal) (ix2 k e)
      = (m ((cdev : Thread nD τ).loc main_arg1) : S1024x3072.Idx → EReal) (ix2 k e) :=
  congrFun (V_v0 m cdev) (ix2 k e)

/-- Entry `(e, n)` of the second weight matrix the region finds is the argument's. -/
theorem V_v1_at (cdev : Dev nD) (e : Fin 1024) (n : Fin 1024) :
    (V m cdev main_v1 : S1024x1024.Idx → EReal) (ix2 e n)
      = (m ((cdev : Thread nD τ).loc main_arg3) : S1024x1024.Idx → EReal) (ix2 e n) :=
  congrFun (V_v1 m cdev) (ix2 e n)

/-- Entry `(0, e)` of the first bias row is entry `e` of the argument vector. -/
theorem V_v2_at (cdev : Dev nD) (u : Fin 1) (e : Fin 3072) :
    (V m cdev main_v2 : S1x3072.Idx → EReal) (ix2 u e)
      = (m ((cdev : Thread nD τ).loc main_arg2) : S3072.Idx → EReal) (ix1 e) :=
  (congrFun (V_v2 m cdev) (ix2 u e)).trans (shapeCast_a_1a_apply _ _ u e)

/-- Entry `(0, n)` of the second bias row is entry `n` of the argument vector. -/
theorem V_v3_at (cdev : Dev nD) (u : Fin 1) (n : Fin 1024) :
    (V m cdev main_v3 : S1x1024.Idx → EReal) (ix2 u n)
      = (m ((cdev : Thread nD τ).loc main_arg4) : S1024.Idx → EReal) (ix1 n) :=
  (congrFun (V_v3 m cdev) (ix2 u n)).trans (shapeCast_a_1a_apply _ _ u n)

/-! ## One entry of the block a grid point stores, and one entry of the specification -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- Entry `y = (0, r, n)` of the stored block, for ANY five loaded blocks: the chain of products at `(r, n)` plus the
    second bias at `n`, the chain read as the token's second projection. -/
theorem stored_at (h : PayAt c lo) (x0 : Vec Ideal S1x512x1024 .f32) (x1 : Vec Ideal S1024x3072 .bf16)
    (x2 : Vec Ideal S1x3072 .f32) (x3 : Vec Ideal S1024x1024 .bf16) (x4 : Vec Ideal S1x1024 .f32)
    (y : S1x512x1024.Idx) (r : Fin 512) (n : Fin 1024) (hr : (y 1).val = r.val) (hn : (y 2).val = n.val) :
    out0_5 (F := Ideal) x0 x1 x2 x3 x4 y
      = Cert.HeadAttention.outSum c lo
          (Cert.HeadAttention.proj (fun k => x0 (ix3 (0 : Fin 1) r k)) (fun k e => x1 (ix2 k e)) (fun e => x2 (ix2 (0 : Fin 1) e)))
          (fun e n' => x3 (ix2 e n')) n + x4 (ix2 (0 : Fin 1) n) := by
  obtain ⟨u, r', n', rfl⟩ : ∃ (u : Fin 1) (r' : Fin 512) (n' : Fin 1024), y = ix3 u r' n' := ⟨y 0, y 1, y 2, eq_ix3 y⟩
  obtain rfl : r' = r := Fin.ext hr
  obtain rfl : n' = n := Fin.ext hn
  unfold out0_5
  simp only [View.ld_unit_zero (S := S1x512x1024) zeros3, View.ld_unit_zero (S := S1024x3072) zeros2,
    View.ld_unit_zero (S := S1x3072) zeros2, View.ld_unit_zero (S := S1024x1024) zeros2,
    View.ld_unit_zero (S := S1x1024) zeros2]
  refine (Cert.KernelIdeal.Value.canon5_eq x0 x1 x2 x3 x4 (ix3 u r' n')).trans ?_
  show k0_pay2 x0 x1 x2 x3 (Cert.KernelIdeal.Value.ix5_0 (ix3 u r' n')) + x4 (Cert.KernelIdeal.Value.ix5_1 (ix3 u r' n')) = _
  have e0 : Cert.KernelIdeal.Value.ix5_0 (ix3 u r' n') = ix2 r' n' :=
    funext fun a => Fin.ext (by match a with | ⟨0, _⟩ => rfl | ⟨1, _⟩ => rfl)
  have e1 : Cert.KernelIdeal.Value.ix5_1 (ix3 u r' n') = ix2 (0 : Fin 1) n' :=
    funext fun a => Fin.ext (by match a with | ⟨0, _⟩ => rfl | ⟨1, _⟩ => rfl)
  rw [e0, e1, h x0 x1 x2 x3 r' n']

/-- Entry `i = (b, s, n)` of the specification: the output row of token `(b, s)` at `n`. -/
theorem whole_at (x : S4x4096x1024.Idx → EReal) (W : S1024x3072.Idx → EReal) (bq : S3072.Idx → EReal)
    (Wo : S1024x1024.Idx → EReal) (bo : S1024.Idx → EReal) (i : S4x4096x1024.Idx) (b : Fin 4) (s : Fin 4096) (n : Fin 1024)
    (hb : (i 0).val = b.val) (hs : (i 1).val = s.val) (hn : (i 2).val = n.val) :
    Cert.HeadAttention.whole c lo x W bq Wo bo i
      = Cert.HeadAttention.outSum c lo
          (Cert.HeadAttention.proj (fun k => x (ix3 b s k)) (fun k e => W (ix2 k e)) (fun e => bq (ix1 e)))
          (fun e n' => Wo (ix2 e n')) n + bo (ix1 n) := by
  obtain ⟨b', s', n', rfl⟩ : ∃ (b' : Fin 4) (s' : Fin 4096) (n' : Fin 1024), i = ix3 b' s' n' := ⟨i 0, i 1, i 2, eq_ix3 i⟩
  obtain rfl : b' = b := Fin.ext hb
  obtain rfl : s' = s := Fin.ext hs
  obtain rfl : n' = n := Fin.ext hn
  rfl

/-- Two output rows built from entrywise equal data are equal. -/
theorem outRow_congr {x x' : Fin 1024 → EReal} {W W' : Fin 1024 → Fin 3072 → EReal} {bq bq' : Fin 3072 → EReal}
    {Wo Wo' : Fin 1024 → Fin 1024 → EReal} {z z' : EReal} (n : Fin 1024)
    (h0 : ∀ k, x k = x' k) (h1 : ∀ k e, W k e = W' k e) (h2 : ∀ e, bq e = bq' e) (h3 : ∀ e n', Wo e n' = Wo' e n')
    (h4 : z = z') :
    Cert.HeadAttention.outSum c lo (Cert.HeadAttention.proj x W bq) Wo n + z
      = Cert.HeadAttention.outSum c lo (Cert.HeadAttention.proj x' W' bq') Wo' n + z' := by
  obtain rfl : x = x' := funext h0
  obtain rfl : W = W' := funext fun k => funext (h1 k)
  obtain rfl : bq = bq' := funext h2
  obtain rfl : Wo = Wo' := funext fun e => funext (h3 e)
  rw [h4]

/-! ## Each loaded block, entry by entry, as entries of the arguments

A block's entry `y` is the array's entry at block index × block size + `y`, axis by axis. -/

/-- Row `r` of the token block at point `t` is the row of token `(b, s)`, `b` the point's batch and `s` its block of
    512 tokens times 512 plus `r`. -/
theorem tokens_at (cdev : Dev nD) (t : Fin cfg0.N) (u : Fin 1) (r : Fin 512) (k : Fin 1024) (b : Fin 4) (s : Fin 4096)
    (hb : b.val = win0_5.index t (0 : Fin 3)) (hs : s.val = win0_5.index t (1 : Fin 3) * 512 + r.val) :
    (iblk m cdev 0 t : Vec Ideal S1x512x1024 .f32) (ix3 u r k)
      = (m ((cdev : Thread nD τ).loc main_arg0) : S4x4096x1024.Idx → EReal) (ix3 b s k) := by
  obtain ⟨e0, e1, e2, -⟩ := idx_facts t
  have hu : u.val = 0 := by omega
  have hidx : ((cfg0.win 0).blk t).view.emb (ix3 u r k) = (ix3 b s k : S4x4096x1024.Idx) := by
    funext a; apply Fin.ext
    match a with
    | ⟨0, _⟩ => show win0_0.index t (0 : Fin 3) * 1 + 1 * u.val = b.val; omega
    | ⟨1, _⟩ => show win0_0.index t (1 : Fin 3) * 512 + 1 * r.val = s.val; omega
    | ⟨2, _⟩ => show win0_0.index t (2 : Fin 3) * 1024 + 1 * k.val = k.val; omega
  show V m cdev main_arg0 (((cfg0.win 0).blk t).view.emb (ix3 u r k)) = _
  rw [hidx, V_main_arg0]

/-- The first weight block is the whole first weight matrix. -/
theorem weights_at (cdev : Dev nD) (t : Fin cfg0.N) (k : Fin 1024) (e : Fin 3072) :
    (iblk m cdev 1 t : Vec Ideal S1024x3072 .bf16) (ix2 k e)
      = (m ((cdev : Thread nD τ).loc main_arg1) : S1024x3072.Idx → EReal) (ix2 k e) := by
  obtain ⟨-, -, -, -, e0, e1, -⟩ := idx_facts t
  have hidx : ((cfg0.win 1).blk t).view.emb (ix2 k e) = (ix2 k e : S1024x3072.Idx) := by
    funext a; apply Fin.ext
    match a with
    | ⟨0, _⟩ => show win0_1.index t (0 : Fin 2) * 1024 + 1 * k.val = k.val; omega
    | ⟨1, _⟩ => show win0_1.index t (1 : Fin 2) * 3072 + 1 * e.val = e.val; omega
  show V m cdev main_v0 (((cfg0.win 1).blk t).view.emb (ix2 k e)) = _
  rw [hidx]
  exact V_v0_at m cdev k e

/-- The first bias block is the whole first bias, as a row. -/
theorem bias_at (cdev : Dev nD) (t : Fin cfg0.N) (u : Fin 1) (e : Fin 3072) :
    (iblk m cdev 2 t : Vec Ideal S1x3072 .f32) (ix2 u e)
      = (m ((cdev : Thread nD τ).loc main_arg2) : S3072.Idx → EReal) (ix1 e) := by
  obtain ⟨-, -, -, -, -, -, e0, e1, -⟩ := idx_facts t
  have hidx : ((cfg0.win 2).blk t).view.emb (ix2 u e) = (ix2 u e : S1x3072.Idx) := by
    funext a; apply Fin.ext
    match a with
    | ⟨0, _⟩ => show win0_2.index t (0 : Fin 2) * 1 + 1 * u.val = u.val; omega
    | ⟨1, _⟩ => show win0_2.index t (1 : Fin 2) * 3072 + 1 * e.val = e.val; omega
  show V m cdev main_v2 (((cfg0.win 2).blk t).view.emb (ix2 u e)) = _
  rw [hidx]
  exact V_v2_at m cdev u e

/-- The second weight block is the whole second weight matrix. -/
theorem outWeights_at (cdev : Dev nD) (t : Fin cfg0.N) (e : Fin 1024) (n : Fin 1024) :
    (iblk m cdev 3 t : Vec Ideal S1024x1024 .bf16) (ix2 e n)
      = (m ((cdev : Thread nD τ).loc main_arg3) : S1024x1024.Idx → EReal) (ix2 e n) := by
  obtain ⟨-, -, -, -, -, -, -, -, e0, e1, -⟩ := idx_facts t
  have hidx : ((cfg0.win 3).blk t).view.emb (ix2 e n) = (ix2 e n : S1024x1024.Idx) := by
    funext a; apply Fin.ext
    match a with
    | ⟨0, _⟩ => show win0_3.index t (0 : Fin 2) * 1024 + 1 * e.val = e.val; omega
    | ⟨1, _⟩ => show win0_3.index t (1 : Fin 2) * 1024 + 1 * n.val = n.val; omega
  show V m cdev main_v1 (((cfg0.win 3).blk t).view.emb (ix2 e n)) = _
  rw [hidx]
  exact V_v1_at m cdev e n

/-- The second bias block is the whole second bias, as a row. -/
theorem outBias_at (cdev : Dev nD) (t : Fin cfg0.N) (u : Fin 1) (n : Fin 1024) :
    (iblk m cdev 4 t : Vec Ideal S1x1024 .f32) (ix2 u n)
      = (m ((cdev : Thread nD τ).loc main_arg4) : S1024.Idx → EReal) (ix1 n) := by
  obtain ⟨-, -, -, -, -, -, -, -, -, -, e0, e1, -⟩ := idx_facts t
  have hidx : ((cfg0.win 4).blk t).view.emb (ix2 u n) = (ix2 u n : S1x1024.Idx) := by
    funext a; apply Fin.ext
    match a with
    | ⟨0, _⟩ => show win0_4.index t (0 : Fin 2) * 1 + 1 * u.val = u.val; omega
    | ⟨1, _⟩ => show win0_4.index t (1 : Fin 2) * 1024 + 1 * n.val = n.val; omega
  show V m cdev main_v3 (((cfg0.win 4).blk t).view.emb (ix2 u n)) = _
  rw [hidx]
  exact V_v3_at m cdev u n

/-! ## What a grid point writes back is its block of the specification -/

/-- Point `t` writes back block `t` of the whole-array specification of the five arguments. -/
theorem flushed_eq (h : PayAt c lo) (cdev : Dev nD) (t : Fin cfg0.N) :
    (dats m 0 cdev).flushed 5 t
      = ((cfg0.win 5).blk t).view.read (Elt Ideal)
          (Cert.HeadAttention.whole c lo (m ((cdev : Thread nD τ).loc main_arg0)) (m ((cdev : Thread nD τ).loc main_arg1))
            (m ((cdev : Thread nD τ).loc main_arg2)) (m ((cdev : Thread nD τ).loc main_arg3)) (m ((cdev : Thread nD τ).loc main_arg4))) := by
  rw [Cert.KernelIdeal.Value.flushed5]
  funext j
  have hj0 : (j 0).val < 1 := (j 0).isLt
  have hj1 : (j 1).val < 512 := (j 1).isLt
  have hj2 : (j 2).val < 1024 := (j 2).isLt
  obtain ⟨-, -, -, e3, -, -, -, -, -, -, -, -, l0, l1⟩ := idx_facts t
  refine (stored_at c lo h (iblk m cdev 0 t) (iblk m cdev 1 t) (iblk m cdev 2 t) (iblk m cdev 3 t) (iblk m cdev 4 t)
    ((cfg0.win 5).xinj (grid0.coords t) j) ⟨(j 1).val, hj1⟩ ⟨(j 2).val, hj2⟩ rfl rfl).trans ?_
  show _ = Cert.HeadAttention.whole c lo (m ((cdev : Thread nD τ).loc main_arg0)) (m ((cdev : Thread nD τ).loc main_arg1))
            (m ((cdev : Thread nD τ).loc main_arg2)) (m ((cdev : Thread nD τ).loc main_arg3)) (m ((cdev : Thread nD τ).loc main_arg4))
            (((cfg0.win 5).blk t).view.emb j)
  refine Eq.trans ?_ (whole_at c lo _ _ _ _ _ (((cfg0.win 5).blk t).view.emb j)
    ⟨win0_5.index t (0 : Fin 3), by omega⟩ ⟨win0_5.index t (1 : Fin 3) * 512 + (j 1).val, by omega⟩ ⟨(j 2).val, hj2⟩
    (by show win0_5.index t (0 : Fin 3) * 1 + 1 * (j 0).val = win0_5.index t (0 : Fin 3); omega)
    (by show win0_5.index t (1 : Fin 3) * 512 + 1 * (j 1).val = win0_5.index t (1 : Fin 3) * 512 + (j 1).val; omega)
    (by show win0_5.index t (2 : Fin 3) * 1024 + 1 * (j 2).val = (j 2).val; omega)).symm
  exact outRow_congr c lo _
    (fun k => tokens_at m cdev t 0 _ k _ _ rfl rfl)
    (fun k e => weights_at m cdev t k e)
    (fun e => bias_at m cdev t 0 e)
    (fun e n' => outWeights_at m cdev t e n')
    (outBias_at m cdev t 0 _)

/-! ## The blocks cover the array -/

/-- An entry of the result lies in point `t`'s block iff each coordinate lies in the block's range on its axis. -/
theorem mem_blk (t : Fin cfg0.N) (i : S4x4096x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v4).slice (win0_5.rect t)).set ↔ _
  rw [View.set_slice_whole, Rect.mem_set_unit]
  exact Iff.rfl

/-- Entry `(b, s, n)` lies in the block of the point with batch `b` and token block `s / 512`. -/
theorem cover (i : S4x4096x1024.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-! ## The result array, and the run -/

/-- After the run the result array is the whole-array specification of the five arguments as launched. -/
theorem final (h : PayAt c lo) (cdev : Dev nD) :
    (dats m 0 cdev).arrAt 5 cfg0.N
      = Cert.HeadAttention.whole c lo (m ((cdev : Thread nD τ).loc main_arg0)) (m ((cdev : Thread nD τ).loc main_arg1))
          (m ((cdev : Thread nD τ).loc main_arg2)) (m ((cdev : Thread nD τ).loc main_arg3)) (m ((cdev : Thread nD τ).loc main_arg4)) :=
  (dats m 0 cdev).arrAt_eq_of_cover 5 _ (fun t _ => flushed_eq c lo m h cdev t) cover

/-- The run, read: the result array at the specification of the arguments, the arguments unchanged. -/
theorem run (h : PayAt c lo) :
    θ_run (defs (F := Ideal)) (onTc (τ := τ) (main (F := Ideal))) ⟨m, fun _ => 0, ρ⟩ fun r => ∀ cdev : Dev nD,
      r.2.mem ((cdev : Thread nD τ).loc main_v4)
        = Cert.HeadAttention.whole c lo (m ((cdev : Thread nD τ).loc main_arg0)) (m ((cdev : Thread nD τ).loc main_arg1))
            (m ((cdev : Thread nD τ).loc main_arg2)) (m ((cdev : Thread nD τ).loc main_arg3)) (m ((cdev : Thread nD τ).loc main_arg4))
      ∧ r.2.mem ((cdev : Thread nD τ).loc main_arg0) = m ((cdev : Thread nD τ).loc main_arg0)
      ∧ r.2.mem ((cdev : Thread nD τ).loc main_arg1) = m ((cdev : Thread nD τ).loc main_arg1)
      ∧ r.2.mem ((cdev : Thread nD τ).loc main_arg2) = m ((cdev : Thread nD τ).loc main_arg2)
      ∧ r.2.mem ((cdev : Thread nD τ).loc main_arg3) = m ((cdev : Thread nD τ).loc main_arg3)
      ∧ r.2.mem ((cdev : Thread nD τ).loc main_arg4) = m ((cdev : Thread nD τ).loc main_arg4) :=
  (θ_run defs _ _).mono (fun r hh cd => ⟨(hh cd).1.trans (final c lo m h cd), (hh cd).2⟩)
    (Cert.KernelIdeal.Value.run_blocks m ρ)

end Cert.BlocksToArray

end
-- ==== Proof.ReferenceRows.lean ====
/-
  The reference program, read one operation after another, is the head attention of each token.

  Fix a token, batch entry b and position s. The first matrix product and its bias give the token's
  projected row of 3072 numbers. Three slices of width 1024 followed by a reshape to 16 × 64 read that row at the
  columns of the queries, the keys and the values: entry (h, d) of slice number p sits at column
  p · 1024 + h · 64 + d, because the row-major position of (b, s, h, d) among 4 × 4096 × 16 × 64 entries is the
  position of (b, s, h · 64 + d) among 4 × 4096 × 1024. The batched product over d of queries and keys, times the
  scale, is the table of scores of the 16 heads against each other; the maximum over the last axis (a fold from
  the floor, then once more against the floor), the shift, the exponential, the sum over the last axis and the
  quotient are the softmax of each row of that table; the batched product with the values mixes the value vectors;
  the reshape back to 1024 columns puts head e / 64, coordinate e % 64 at column e; the last matrix product and
  bias are the output projection. Each step below states one intermediate array at an index given by its
  coordinates, and the last theorem chains them.
-/
import proofs.«177501_j68771016343750_1_alg».proof.Proof.Gen.ReferenceIdeal.Read
import proofs.«177501_j68771016343750_1_alg».proof.Proof.HeadAttention

noncomputable section

namespace Cert.ReferenceRows

open Cert.ReferenceIdeal Cert.ReferenceIdeal.Gen Cert.ReferenceIdeal.Read Idealize.ShloMosaic Idealize.ShloMosaic.ValueIdx
open Cert.HeadAttention

/-- The scale the reference spells: one over the square root of the head width, both as the written words. -/
def refScale : EReal := Ideal.div (Ideal.ofBits .f32 0x3F800000#32) (Ideal.sqrt (Ideal.ofBits .f32 0x42800000#32))
/-- The floor of the row maximum: the word of −∞. -/
def lo : EReal := Ideal.ofBits .f32 0xFF800000#32

section
variable (x0 : (⟨S4x4096x1024, .f32⟩ : BufTy).Contents (Elt Ideal)) (x1 : (⟨S1024x3072, .f32⟩ : BufTy).Contents (Elt Ideal))
  (x2 : (⟨S3072, .f32⟩ : BufTy).Contents (Elt Ideal))

/-- The projected row of token (b, s). -/
def tokenRow (b : Fin 4) (s : Fin 4096) : Fin 3072 → EReal :=
  proj (fun k => x0 (ix3 b s k)) (fun k e => x1 (ix2 k e)) (fun e => x2 (ix1 e))

/-! ### The first projection -/

theorem lidx2 (b : Fin 4) (s : Fin 4096) (e : Fin 3072) (k : Fin 1024) : lidx_main_v2 (ix3 b s e) k = ix3 b s k :=
  funext fun a => Fin.ext (by match a with | ⟨0, _⟩ => rfl | ⟨1, _⟩ => rfl | ⟨2, _⟩ => rfl)
theorem ridx2 (b : Fin 4) (s : Fin 4096) (e : Fin 3072) (k : Fin 1024) : ridx_main_v2 (ix3 b s e) k = ix2 k e :=
  funext fun a => Fin.ext (by match a with | ⟨0, _⟩ => rfl | ⟨1, _⟩ => rfl)
theorem idx34 (b : Fin 4) (s : Fin 4096) (e : Fin 3072) : idx_main_v3 (idx_main_v4 (ix3 b s e)) = ix1 e :=
  funext fun a => Fin.ext (by match a with | ⟨0, _⟩ => rfl)

/-- The sum of the product and the broadcast bias is the projected row. -/
theorem v5_at (b : Fin 4) (s : Fin 4096) (e : Fin 3072) :
    val_main_v5 (F := Ideal) x0 x1 x2 (ix3 b s e) = tokenRow x0 x1 x2 b s e := by
  rw [val_main_v5_apply, val_main_v2_apply, val_main_v4_apply, val_main_v3_apply, idx34]
  refine congrArg (· + x2 (ix1 e)) (Finset.sum_congr rfl fun k _ => ?_)
  rw [lidx2, ridx2]

/-! ### The three parts, as 16 heads of 64 coordinates -/

theorem idx69 (b : Fin 4) (s : Fin 4096) (h : Fin 16) (d : Fin 64) :
    idx_main_v6 (idx_main_v9 (ix4 b s h d)) = ix3 b s (col 0 h d) :=
  funext fun a => Fin.ext (by
    have hb := b.isLt; have hs := s.isLt; have hh := h.isLt; have hd := d.isLt
    match a with
    | ⟨0, _⟩ => show (((b.val * 4096 + s.val) * 16 + h.val) * 64 + d.val) / 4194304 = b.val; omega
    | ⟨1, _⟩ => show (((b.val * 4096 + s.val) * 16 + h.val) * 64 + d.val) / 1024 % 4096 = s.val; omega
    | ⟨2, _⟩ => show (((b.val * 4096 + s.val) * 16 + h.val) * 64 + d.val) % 1024 = 0 * 1024 + h.val * 64 + d.val; omega)
theorem idx710 (b : Fin 4) (s : Fin 4096) (h : Fin 16) (d : Fin 64) :
    idx_main_v7 (idx_main_v10 (ix4 b s h d)) = ix3 b s (col 1 h d) :=
  funext fun a => Fin.ext (by
    have hb := b.isLt; have hs := s.isLt; have hh := h.isLt; have hd := d.isLt
    match a with
    | ⟨0, _⟩ => show (((b.val * 4096 + s.val) * 16 + h.val) * 64 + d.val) / 4194304 = b.val; omega
    | ⟨1, _⟩ => show (((b.val * 4096 + s.val) * 16 + h.val) * 64 + d.val) / 1024 % 4096 = s.val; omega
    | ⟨2, _⟩ => show 1024 + (((b.val * 4096 + s.val) * 16 + h.val) * 64 + d.val) % 1024 = 1 * 1024 + h.val * 64 + d.val; omega)
theorem idx811 (b : Fin 4) (s : Fin 4096) (h : Fin 16) (d : Fin 64) :
    idx_main_v8 (idx_main_v11 (ix4 b s h d)) = ix3 b s (col 2 h d) :=
  funext fun a => Fin.ext (by
    have hb := b.isLt; have hs := s.isLt; have hh := h.isLt; have hd := d.isLt
    match a with
    | ⟨0, _⟩ => show (((b.val * 4096 + s.val) * 16 + h.val) * 64 + d.val) / 4194304 = b.val; omega
    | ⟨1, _⟩ => show (((b.val * 4096 + s.val) * 16 + h.val) * 64 + d.val) / 1024 % 4096 = s.val; omega
    | ⟨2, _⟩ => show 2048 + (((b.val * 4096 + s.val) * 16 + h.val) * 64 + d.val) % 1024 = 2 * 1024 + h.val * 64 + d.val; omega)

/-- The queries: coordinate d of head h is the projected row at column h · 64 + d. -/
theorem v9_at (b : Fin 4) (s : Fin 4096) (h : Fin 16) (d : Fin 64) :
    val_main_v9 (F := Ideal) x0 x1 x2 (ix4 b s h d) = tokenRow x0 x1 x2 b s (col 0 h d) := by
  rw [val_main_v9_apply, val_main_v6_apply, idx69]
  exact v5_at x0 x1 x2 b s _
/-- The keys: the same, 1024 columns further. -/
theorem v10_at (b : Fin 4) (s : Fin 4096) (h : Fin 16) (d : Fin 64) :
    val_main_v10 (F := Ideal) x0 x1 x2 (ix4 b s h d) = tokenRow x0 x1 x2 b s (col 1 h d) := by
  rw [val_main_v10_apply, val_main_v7_apply, idx710]
  exact v5_at x0 x1 x2 b s _
/-- The values: 2048 columns further. -/
theorem v11_at (b : Fin 4) (s : Fin 4096) (h : Fin 16) (d : Fin 64) :
    val_main_v11 (F := Ideal) x0 x1 x2 (ix4 b s h d) = tokenRow x0 x1 x2 b s (col 2 h d) := by
  rw [val_main_v11_apply, val_main_v8_apply, idx811]
  exact v5_at x0 x1 x2 b s _

/-! ### The scores -/

/-- The broadcast scalar is the scale as written. -/
theorem scale_at (j : S_.Idx) : val_main_v1 (F := Ideal) j = refScale := rfl

theorem lidx12 (b : Fin 4) (s : Fin 4096) (i j : Fin 16) (k : Fin 64) : lidx_main_v12 (ix4 b s i j) k = ix4 b s i k :=
  funext fun a => Fin.ext (by match a with | ⟨0, _⟩ => rfl | ⟨1, _⟩ => rfl | ⟨2, _⟩ => rfl | ⟨3, _⟩ => rfl)
theorem ridx12 (b : Fin 4) (s : Fin 4096) (i j : Fin 16) (k : Fin 64) : ridx_main_v12 (ix4 b s i j) k = ix4 b s j k :=
  funext fun a => Fin.ext (by match a with | ⟨0, _⟩ => rfl | ⟨1, _⟩ => rfl | ⟨2, _⟩ => rfl | ⟨3, _⟩ => rfl)

/-- Entry (i, j) of the scaled product of queries and keys is the score of head i against head j. -/
theorem v14_at (b : Fin 4) (s : Fin 4096) (i j : Fin 16) :
    val_main_v14 (F := Ideal) x0 x1 x2 (ix4 b s i j) = score refScale (tokenRow x0 x1 x2 b s) i j := by
  rw [val_main_v14_apply, val_main_v12_apply, val_main_v13_apply, scale_at]
  refine congrArg (· * refScale) (Finset.sum_congr rfl fun k _ => ?_)
  rw [lidx12, ridx12, v9_at, v10_at]

/-! ### The softmax of a row of scores -/

/-- The last axis of the 4 × 4096 × 16 × 16 table is the one the two reductions remove. -/
theorem reduces15 : S4x4096x16x16.Reduces [3] S4x4096x16 := by decide

/-- Putting coordinate k back on the removed axis of (b, s, i) gives (b, s, i, k). -/
theorem lift15 (b : Fin 4) (s : Fin 4096) (i : Fin 16) (k : Fin 16) :
    reduces15.lift (ix3 b s i) k = ix4 b s i k :=
  funext fun a => Fin.ext (by
    refine (reduces15.lift_val (ix3 b s i) k a).trans ?_
    unfold Shape.Reduces.liftVal
    match a with | ⟨0, _⟩ => rfl | ⟨1, _⟩ => rfl | ⟨2, _⟩ => rfl | ⟨3, _⟩ => rfl)

/-- The maximum over the last axis is the fold of max over the 16 scores of the row, from the floor. -/
theorem v15_at (b : Fin 4) (s : Fin 4096) (i : Fin 16) :
    val_main_v15 (F := Ideal) x0 x1 x2 (ix3 b s i)
      = (Finset.univ : Finset (Fin 16)).fold max lo (score refScale (tokenRow x0 x1 x2 b s) i) := by
  unfold val_main_v15
  refine (Host.reduce_eq_fold_single FloatOps.maximumf _ _ reducesTo_S4x4096x16x16_S4x4096x16_d3
    reduces15 h_S_ (ix3 b s i)).trans ?_
  show (Finset.univ : Finset (Fin 16)).fold max lo
      (fun k => val_main_v14 (F := Ideal) x0 x1 x2 (reduces15.lift (ix3 b s i) k)) = _
  refine Finset.fold_congr fun k _ => ?_
  exact (congrArg (val_main_v14 (F := Ideal) x0 x1 x2) (lift15 b s i k)).trans (v14_at x0 x1 x2 b s i k)

theorem idx1819 (b : Fin 4) (s : Fin 4096) (i j : Fin 16) : idx_main_v18 (idx_main_v19 (ix4 b s i j)) = ix3 b s i :=
  funext fun a => Fin.ext (by match a with | ⟨0, _⟩ => rfl | ⟨1, _⟩ => rfl | ⟨2, _⟩ => rfl)

/-- Taken once more against the floor, it is the row's maximum. -/
theorem v17_at (b : Fin 4) (s : Fin 4096) (i : Fin 16) :
    val_main_v17 (F := Ideal) x0 x1 x2 (ix3 b s i) = rowMax lo (score refScale (tokenRow x0 x1 x2 b s) i) := by
  rw [val_main_v17_apply, v15_at]
  rfl

/-- The shifted, exponentiated score. -/
theorem v21_at (b : Fin 4) (s : Fin 4096) (i j : Fin 16) :
    val_main_v21 (F := Ideal) x0 x1 x2 (ix4 b s i j) = expo lo (score refScale (tokenRow x0 x1 x2 b s) i) j := by
  rw [val_main_v21_apply, val_main_v20_apply, val_main_v19_apply, val_main_v18_apply, idx1819, v17_at, v14_at]
  rfl

theorem idx22 (b : Fin 4) (s : Fin 4096) (i : Fin 16) (k : Fin 16) : idx_main_v22 (ix3 b s i) k = ix4 b s i k :=
  funext fun a => Fin.ext (by match a with | ⟨0, _⟩ => rfl | ⟨1, _⟩ => rfl | ⟨2, _⟩ => rfl | ⟨3, _⟩ => rfl)

/-- The sum over the last axis, from the zero word, is the row's sum of exponentials. -/
theorem v22_at (b : Fin 4) (s : Fin 4096) (i : Fin 16) :
    val_main_v22 (F := Ideal) x0 x1 x2 (ix3 b s i) = ∑ j : Fin 16, expo lo (score refScale (tokenRow x0 x1 x2 b s) i) j := by
  rw [val_main_v22_apply, val_main_cst_3_apply, Ideal.ofBits_def, Ideal.ofBits_zero_f32, zero_add]
  refine Finset.sum_congr rfl fun k _ => ?_
  rw [idx22, v21_at]

theorem idx2324 (b : Fin 4) (s : Fin 4096) (i j : Fin 16) : idx_main_v23 (idx_main_v24 (ix4 b s i j)) = ix3 b s i :=
  funext fun a => Fin.ext (by match a with | ⟨0, _⟩ => rfl | ⟨1, _⟩ => rfl | ⟨2, _⟩ => rfl)

/-- The quotient is the softmax weight. -/
theorem v25_at (b : Fin 4) (s : Fin 4096) (i j : Fin 16) :
    val_main_v25 (F := Ideal) x0 x1 x2 (ix4 b s i j) = weight lo (score refScale (tokenRow x0 x1 x2 b s) i) j := by
  rw [val_main_v25_apply, val_main_v24_apply, val_main_v23_apply, idx2324, v22_at, v21_at]
  rfl

/-! ### The mixed values and the second projection -/

theorem lidx26 (b : Fin 4) (s : Fin 4096) (i : Fin 16) (d : Fin 64) (k : Fin 16) : lidx_main_v26 (ix4 b s i d) k = ix4 b s i k :=
  funext fun a => Fin.ext (by match a with | ⟨0, _⟩ => rfl | ⟨1, _⟩ => rfl | ⟨2, _⟩ => rfl | ⟨3, _⟩ => rfl)
theorem ridx26 (b : Fin 4) (s : Fin 4096) (i : Fin 16) (d : Fin 64) (k : Fin 16) : ridx_main_v26 (ix4 b s i d) k = ix4 b s k d :=
  funext fun a => Fin.ext (by match a with | ⟨0, _⟩ => rfl | ⟨1, _⟩ => rfl | ⟨2, _⟩ => rfl | ⟨3, _⟩ => rfl)

/-- The batched product of the weights with the values mixes the value vectors. -/
theorem v26_at (b : Fin 4) (s : Fin 4096) (i : Fin 16) (d : Fin 64) :
    val_main_v26 (F := Ideal) x0 x1 x2 (ix4 b s i d) = mixed refScale lo (tokenRow x0 x1 x2 b s) i d := by
  rw [val_main_v26_apply]
  refine Finset.sum_congr rfl fun k _ => ?_
  rw [lidx26, ridx26, v25_at, v11_at]

theorem idx27 (b : Fin 4) (s : Fin 4096) (e : Fin 1024) : idx_main_v27 (ix3 b s e) = ix4 b s (headOf e) (coordOf e) :=
  funext fun a => Fin.ext (by
    have hb := b.isLt; have hs := s.isLt; have he := e.isLt
    match a with
    | ⟨0, _⟩ => show ((b.val * 4096 + s.val) * 1024 + e.val) / 4194304 = b.val; omega
    | ⟨1, _⟩ => show ((b.val * 4096 + s.val) * 1024 + e.val) / 1024 % 4096 = s.val; omega
    | ⟨2, _⟩ => show ((b.val * 4096 + s.val) * 1024 + e.val) / 64 % 16 = e.val / 64; omega
    | ⟨3, _⟩ => show ((b.val * 4096 + s.val) * 1024 + e.val) % 64 = e.val % 64; omega)

/-- Flattened back to 1024 columns, column e holds head e / 64, coordinate e % 64. -/
theorem v27_at (b : Fin 4) (s : Fin 4096) (e : Fin 1024) :
    val_main_v27 (F := Ideal) x0 x1 x2 (ix3 b s e) = mixed refScale lo (tokenRow x0 x1 x2 b s) (headOf e) (coordOf e) := by
  rw [val_main_v27_apply, idx27]
  exact v26_at x0 x1 x2 b s _ _

variable (x3 : (⟨S1024x1024, .f32⟩ : BufTy).Contents (Elt Ideal)) (x4 : (⟨S1024, .f32⟩ : BufTy).Contents (Elt Ideal))

theorem lidx28 (b : Fin 4) (s : Fin 4096) (n k : Fin 1024) : lidx_main_v28 (ix3 b s n) k = ix3 b s k :=
  funext fun a => Fin.ext (by match a with | ⟨0, _⟩ => rfl | ⟨1, _⟩ => rfl | ⟨2, _⟩ => rfl)
theorem ridx28 (b : Fin 4) (s : Fin 4096) (n k : Fin 1024) : ridx_main_v28 (ix3 b s n) k = ix2 k n :=
  funext fun a => Fin.ext (by match a with | ⟨0, _⟩ => rfl | ⟨1, _⟩ => rfl)
theorem idx2930 (b : Fin 4) (s : Fin 4096) (n : Fin 1024) : idx_main_v29 (idx_main_v30 (ix3 b s n)) = ix1 n :=
  funext fun a => Fin.ext (by match a with | ⟨0, _⟩ => rfl)

/-- The second product. -/
theorem v28_at (b : Fin 4) (s : Fin 4096) (n : Fin 1024) :
    val_main_v28 (F := Ideal) x0 x1 x2 x3 (ix3 b s n)
      = outSum refScale lo (tokenRow x0 x1 x2 b s) (fun e n => x3 (ix2 e n)) n := by
  rw [val_main_v28_apply]
  refine Finset.sum_congr rfl fun k _ => ?_
  rw [lidx28, ridx28, v27_at]

/-- With its bias: the token's output row. -/
theorem v31_at (b : Fin 4) (s : Fin 4096) (n : Fin 1024) :
    val_main_v31 (F := Ideal) x0 x1 x2 x3 x4 (ix3 b s n)
      = outRow refScale lo (tokenRow x0 x1 x2 b s) (fun e n => x3 (ix2 e n)) (fun n => x4 (ix1 n)) n := by
  rw [val_main_v31_apply, val_main_v30_apply, val_main_v29_apply, idx2930, v28_at]
  rfl

/-- The reference's result is the head attention of every token, followed by the output projection. -/
theorem reference_is_whole :
    Cert.ReferenceIdeal.Read.val_main_v31 (F := Ideal) x0 x1 x2 x3 x4 = Cert.HeadAttention.whole refScale lo x0 x1 x2 x3 x4 := by
  funext i
  obtain ⟨b, s, n, rfl⟩ : ∃ (b : Fin 4) (s : Fin 4096) (n : Fin 1024), i = ix3 b s n := ⟨i 0, i 1, i 2, eq_ix3 i⟩
  exact v31_at x0 x1 x2 x3 x4 b s n

end

end Cert.ReferenceRows

end
-- ==== Proof.lean ====
/-
  A fused attention kernel against its plain reference, over the extended reals.

  Both programs take tokens `x[4, 4096, 1024]`, project each token to queries, keys and values (16 heads of 64
  coordinates), attend ACROSS THE HEADS of the same token (a 16 × 16 table of scaled inner products, a softmax along
  each row, the value vectors mixed by the weights), flatten the heads back to 1024 numbers and project once more.
  The kernel does this for 512 tokens at a time on a 4 × 8 grid; the reference does it for the whole array at once.

  The proof states the result for ONE token as a function of that token's row and the weights (HeadAttention), shows
  that the kernel's block arithmetic, read at token `r` of a block, is that function of the block's row `r`
  (KernelStages, KernelDots, KernelRows), that the blocks the grid points write tile the result array
  (BlocksToArray), and that the reference, operation by operation, is the same function of row `(b, s)`
  (ReferenceRows). No algebraic law beyond re-indexing a finite sum is needed: the two sides perform the same
  operations in the same order on every token, so the inputs' finiteness is never used. The only difference in
  spelling is the scale of the scores, `0.125` against `1 / sqrt 64`, which are the same real number (ScaleConst).
  Changes of float format are the identity on extended reals, so the kernel's narrowing of its matrix operands
  disappears; the idealization rewrote nothing, so there is nothing to preserve beyond that.
-/
import proofs.«177501_j68771016343750_1_alg».proof.Defs
import proofs.«177501_j68771016343750_1_alg».proof.Proof.Gen.Kernel
import proofs.«177501_j68771016343750_1_alg».proof.Proof.Gen.Kernel.Skeleton
import proofs.«177501_j68771016343750_1_alg».proof.Proof.Gen.Kernel.Launch
import proofs.«177501_j68771016343750_1_alg».proof.Proof.Gen.Kernel.Points
import proofs.«177501_j68771016343750_1_alg».proof.Proof.Gen.Kernel.Frame
import proofs.«177501_j68771016343750_1_alg».proof.Proof.Gen.KernelIdeal
import proofs.«177501_j68771016343750_1_alg».proof.Proof.Gen.KernelIdeal.Skeleton
import proofs.«177501_j68771016343750_1_alg».proof.Proof.Gen.KernelIdeal.Launch
import proofs.«177501_j68771016343750_1_alg».proof.Proof.Gen.KernelIdeal.Points
import proofs.«177501_j68771016343750_1_alg».proof.Proof.Gen.KernelIdeal.Frame
import proofs.«177501_j68771016343750_1_alg».proof.Proof.Gen.ReferenceIdeal
import proofs.«177501_j68771016343750_1_alg».proof.Proof.Gen.Pre_finite_inputs
import proofs.«177501_j68771016343750_1_alg».proof.Proof.Gen.KernelIdeal.Value
import proofs.«177501_j68771016343750_1_alg».proof.Proof.Gen.ReferenceIdeal.Run
import proofs.«177501_j68771016343750_1_alg».proof.Proof.Gen.ReferenceIdeal.Read
import proofs.«177501_j68771016343750_1_alg».proof.Proof.HeadAttention
import proofs.«177501_j68771016343750_1_alg».proof.Proof.ScaleConst
import proofs.«177501_j68771016343750_1_alg».proof.Proof.KernelRows
import proofs.«177501_j68771016343750_1_alg».proof.Proof.BlocksToArray
import proofs.«177501_j68771016343750_1_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs to completion and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the head attention of every token:
    the kernel by its blocks, the reference by its operations, the two scales being one number. -/
theorem algebraic : Cert.algebraic_KernelIdeal_ReferenceIdeal := by
  intro m ρ m' ρ' _ hagree
  refine ⟨_, Cert.BlocksToArray.run _ _ m ρ Cert.KernelRows.pay_at, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceRows.reference_is_whole,
    (hagree c).1, (hagree c).2.1, (hagree c).2.2.1, (hagree c).2.2.2.1, (hagree c).2.2.2.2]
  unfold Cert.ReferenceRows.refScale Cert.ReferenceRows.lo
  rw [Cert.ScaleConst.scale_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
